-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v40_0)) (v2 : (c : Dev Cert.KernelIdeal.nD) → Buf (Elt Ideal) ((c.tc : Thread Cert.KernelIdeal.nD Cert.KernelIdeal.τ).loc Cert.KernelIdeal.main_v40_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v40_0) = v1 c
          ∧ r.2.mem ((c.tc : Thread Cert.KernelIdeal.nD Cert.KernelIdeal.τ).loc Cert.KernelIdeal.main_v40_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000x32 : Shape := ⟨2, ![50000, 32]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg12 : FVec F S32 .f32) (main_v48 : IVec S_ 1) (main_v49 : FVec F S128x32 .f32) (main_v50 : FVec F S128x32 .f32) : IVec S_ 1 :=
  let main_v51 : IVec S128x32 1 := cmpf .olt main_v49 main_v50
  let main_c_19 : IVec S_ 1 := constantI S_ 1 1#1
  let main_v52 : IVec S_ 1 := (fun x v => Host.reduce IntOp.andi x v reducesTo_S128x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg8 : FVec F S128 .f32) (main_arg9 : FVec F S128x32 .f32) (main_arg10 : FVec F S32 .f32) (main_arg11 : FVec F S128x32 .f32) (main_arg12 : FVec F S32 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x32 .f32 := Host.absf main_arg9
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S128x32 .f32 := Host.absf main_arg11
  let main_cst_18 : FVec F S_ .f32 := constant S_ .f32 0x7F800000#32
  let main_v50 : FVec F S128x32 .f32 := broadcastInDim S128x32 ![] bcast_S_S128x32 main_cst_18
  fn_part3 (F := F) main_arg12 main_v48 main_v49 main_v50

def fn_part1 {F : FTy → Type} [FloatOps F] (main_arg5 : FVec F S128 .f32) (main_arg6 : FVec F S128x128 .f32) (main_arg7 : FVec F S128x128 .f32) (main_arg8 : FVec F S128 .f32) (main_arg9 : FVec F S128x32 .f32) (main_arg10 : FVec F S32 .f32) (main_arg11 : FVec F S128x32 .f32) (main_arg12 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x1600000 32) (main_arg2 : FVec F S50000x32 .f32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x32 .f32) (main_arg10 : FVec F S32 .f32) (main_arg11 : FVec F S128x32 .f32) (main_arg12 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x32 .f32 := Host.absf main_arg2
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x1600000 : Shape := ⟨2, ![2, 1600000]⟩
abbrev S50000x32 : Shape := ⟨2, ![50000, 32]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S2000x128 : Shape := ⟨2, ![2000, 128]⟩
abbrev S1x32 : Shape := ⟨2, ![1, 32]⟩
abbrev S2000x32 : Shape := ⟨2, ![2000, 32]⟩
abbrev S32x50000 : Shape := ⟨2, ![32, 50000]⟩
abbrev S32x1600000 : Shape := ⟨2, ![32, 1600000]⟩
abbrev S32x12800 : Shape := ⟨2, ![32, 12800]⟩
abbrev S1x12800 : Shape := ⟨2, ![1, 12800]⟩
abbrev S12800 : Shape := ⟨1, ![12800]⟩

abbrev nBuf : Space → Nat
  | .hbm => 86
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000x32, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x32, .f32⟩
  | .hbm, ⟨10, _⟩ => ⟨S32, .f32⟩
  | .hbm, ⟨11, _⟩ => ⟨S128x32, .f32⟩
  | .hbm, ⟨12, _⟩ => ⟨S32, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000x1, .f32⟩
  | .hbm, ⟨19, _⟩ => ⟨S_, .f32⟩
  | .hbm, ⟨20, _⟩ => ⟨S50000x1, .f32⟩
  | .hbm, ⟨21, _⟩ => ⟨S1600000x1, .i32⟩
  | .hbm, ⟨22, _⟩ => ⟨S50000x1, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S50000x128, .f32⟩
  | .hbm, ⟨37, _⟩ => ⟨S1600000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S50000x128, .f32⟩
  | .hbm, ⟨54, _⟩ => ⟨S1600000x1, .i32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S1x32, .f32⟩
  | .hbm, ⟨61, _⟩ => ⟨S1x32, .f32⟩
  | .hbm, ⟨62, _⟩ => ⟨S50000x32, .f32⟩
  | .hbm, ⟨63, _⟩ => ⟨S50000x32, .f32⟩
  | .hbm, ⟨64, _⟩ => ⟨S50000x32, .f32⟩
  | .hbm, ⟨65, _⟩ => ⟨S32x50000, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S32x1600000, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S32x1600000, .f32⟩
  | .hbm, ⟨84, _⟩ => ⟨S1x1600000, .f32⟩
  | .hbm, ⟨85, _⟩ => ⟨S1600000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x32, .f32⟩
  | .local _ .vmem, ⟨21, _⟩ => ⟨S1x32, .f32⟩
  | .local _ .vmem, ⟨22, _⟩ => ⟨S128x32, .f32⟩
  | .local _ .vmem, ⟨23, _⟩ => ⟨S1x32, .f32⟩
  | .local _ .vmem, ⟨24, _⟩ => ⟨S2000x32, .f32⟩
  | .local _ .vmem, ⟨25, _⟩ => ⟨S2000x32, .f32⟩
  | .local _ .vmem, ⟨26, _⟩ => ⟨S2000x32, .f32⟩
  | .local _ .vmem, ⟨27, _⟩ => ⟨S2000x32, .f32⟩
  | .local _ .vmem, ⟨28, _⟩ => ⟨S2000x32, .f32⟩
  | .local _ .vmem, ⟨29, _⟩ => ⟨S2000x32, .f32⟩
  | .local _ .vmem, ⟨30, _⟩ => ⟨S2000x32, .f32⟩
  | .local _ .vmem, ⟨31, _⟩ => ⟨S2000x32, .f32⟩
  | .local _ .vmem, ⟨32, _⟩ => ⟨S32x12800, .f32⟩
  | .local _ .vmem, ⟨33, _⟩ => ⟨S32x12800, .f32⟩
  | .local _ .vmem, ⟨34, _⟩ => ⟨S32x12800, .f32⟩
  | .local _ .vmem, ⟨35, _⟩ => ⟨S32x12800, .f32⟩
  | .local _ .vmem, ⟨36, _⟩ => ⟨S1x12800, .f32⟩
  | .local _ .vmem, ⟨37, _⟩ => ⟨S1x12800, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40_0 : Ref sig .tc := ⟨.hbm, 62, rfl⟩
abbrev main_v40_1 : Ref sig .tc := ⟨.hbm, 63, rfl⟩
abbrev main_v40_2 : Ref sig .tc := ⟨.hbm, 64, rfl⟩
abbrev main_v41 : Ref sig .tc := ⟨.hbm, 65, rfl⟩
abbrev main_c_7 : Ref sig .tc := ⟨.hbm, 66, rfl⟩
abbrev main_v42 : Ref sig .tc := ⟨.hbm, 67, rfl⟩
abbrev main_v43 : Ref sig .tc := ⟨.hbm, 68, rfl⟩
abbrev main_c_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28
abbrev cc2_sem7_1 : DmaSem sig := 29
abbrev cc2_sem8_0 : DmaSem sig := 30
abbrev cc2_sem8_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x32 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S32x12800 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S32x12800 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x12800 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S50000x1 : S_.BroadcastsInDim S50000x1 (![] : Fin 0 → Fin S50000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S32_S1x32 : S32.ShapeCasts S1x32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  transposes_S50000x32_S32x50000_1_0 : S50000x32.Transposes [1, 0] S32x50000
  inb_S32x12800_S32x12800_0_0 : ∀ a, (![0, 0] : Fin 2 → Nat) a + S32x12800.size a ≤ S32x12800.size a
  h_S32x12800 : 0 < S32x12800.numel
  shapeCasts_S32x12800_S32x12800 : S32x12800.ShapeCasts S32x12800
  reduces_S32x12800_S12800 : S32x12800.Reduces [0] S12800
  shapeCasts_S12800_S1x12800 : S12800.ShapeCasts S1x12800
  inb_S1x12800_S1x12800_0_0 : ∀ a, (![0, 0] : Fin 2 → Nat) a + S1x12800.size a ≤ S1x12800.size a
  h_S1x12800 : 0 < S1x12800.numel
  scatter_S50000x1_S1600000x1_S1600000x1_1_0_0_1_wf : ScatterDims.WF S50000x1 S1600000x1 S1600000x1 [1] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  dot_S2000x128_S128x32_S2000x32_1_0_0_1_n_n_wf : DotDims.WF S2000x128 S128x32 S2000x32 [1] [0] [0] [1] [] []
  gather_S32x50000_S1600000x1_S32x1600000_0_1_n_n_1_1_321_wf : GatherDims.WF S32x50000 S1600000x1 S32x1600000 [0] [1] [] [1] [] 1 ![32, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .f32 = 32 ∨ (Rect.block (s := S128x32) S128x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x32.size a ≤ S128x32.size a
  hwx2_3 : ∀ i : grid2.Coords, EltTy.bits .f32 = 32 ∨ (Rect.block (s := S128x32) S128x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x32.size a ≤ S50000x32.size a
  hwx2_5 : ∀ i : grid2.Coords, EltTy.bits .f32 = 32 ∨ (Rect.block (s := S50000x32) S2000x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x32.size a ≤ S50000x32.size a
  hwx2_6 : ∀ i : grid2.Coords, EltTy.bits .f32 = 32 ∨ (Rect.block (s := S50000x32) S2000x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x32.size a ≤ S50000x32.size a
  hwx2_7 : ∀ i : grid2.Coords, EltTy.bits .f32 = 32 ∨ (Rect.block (s := S50000x32) S2000x32.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x32.size a ≤ S50000x32.size a
  hwx2_8 : ∀ i : grid2.Coords, EltTy.bits .f32 = 32 ∨ (Rect.block (s := S50000x32) S2000x32.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S32x12800.size a ≤ S32x1600000.size a
  hwx3_0 : ∀ i : grid3.Coords, EltTy.bits .f32 = 32 ∨ (Rect.block (s := S32x1600000) S32x12800.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S32x12800.size a ≤ S32x1600000.size a
  hwx3_1 : ∀ i : grid3.Coords, EltTy.bits .f32 = 32 ∨ (Rect.block (s := S32x1600000) S32x12800.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x12800.size a ≤ S1x1600000.size a
  hwx3_2 : ∀ i : grid3.Coords, EltTy.bits .f32 = 32 ∨ (Rect.block (s := S1x1600000) S1x12800.size (cc3_transform_2 i) (hinb3_2 i)).WholeWords (EltTy.packing .f32)

variable [Facts₀]

def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def gather_S32x50000_S1600000x1_S32x1600000_0_1_n_n_1_1_321 : GatherDims S32x50000 S1600000x1 S32x1600000 where
  offsetDims := [0]
  collapsedSliceDims := [1]
  operandBatchingDims := []
  startIndicesBatchingDims := []
  startIndexMap := [1]
  indexVectorDim := 1
  sliceSizes := ![32, 1]
  wf := gather_S32x50000_S1600000x1_S32x1600000_0_1_n_n_1_1_321_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg2) S2000x32.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v40_0) S2000x32.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v40_1) S2000x32.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v40_2) S2000x32.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v48) S32x12800.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S32x12800.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x12800.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000x32 : Shape := ⟨2, ![50000, 32]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S1x32 : Shape := ⟨2, ![1, 32]⟩
abbrev S1600000x32 : Shape := ⟨2, ![1600000, 32]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000x32, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x32, .f32⟩
  | .hbm, ⟨10, _⟩ => ⟨S32, .f32⟩
  | .hbm, ⟨11, _⟩ => ⟨S128x32, .f32⟩
  | .hbm, ⟨12, _⟩ => ⟨S32, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S50000x128, .f32⟩
  | .hbm, ⟨28, _⟩ => ⟨S1600000x1, .i32⟩
  | .hbm, ⟨29, _⟩ => ⟨S50000x128, .f32⟩
  | .hbm, ⟨30, _⟩ => ⟨S_, .f32⟩
  | .hbm, ⟨31, _⟩ => ⟨S1600000x1, .f32⟩
  | .hbm, ⟨32, _⟩ => ⟨S_, .f32⟩
  | .hbm, ⟨33, _⟩ => ⟨S50000x1, .f32⟩
  | .hbm, ⟨34, _⟩ => ⟨S1600000x1, .i32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S50000x128, .f32⟩
  | .hbm, ⟨61, _⟩ => ⟨S1600000x1, .i32⟩
  | .hbm, ⟨62, _⟩ => ⟨S50000x128, .f32⟩
  | .hbm, ⟨63, _⟩ => ⟨S_, .f32⟩
  | .hbm, ⟨64, _⟩ => ⟨S1600000x1, .f32⟩
  | .hbm, ⟨65, _⟩ => ⟨S_, .f32⟩
  | .hbm, ⟨66, _⟩ => ⟨S50000x1, .f32⟩
  | .hbm, ⟨67, _⟩ => ⟨S1600000x1, .i32⟩
  | .hbm, ⟨68, _⟩ => ⟨S50000x1, .f32⟩
  | .hbm, ⟨69, _⟩ => ⟨S_, .f32⟩
  | .hbm, ⟨70, _⟩ => ⟨S50000x1, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S50000x32, .f32⟩
  | .hbm, ⟨84, _⟩ => ⟨S1x32, .f32⟩
  | .hbm, ⟨85, _⟩ => ⟨S50000x32, .f32⟩
  | .hbm, ⟨86, _⟩ => ⟨S50000x32, .f32⟩
  | .hbm, ⟨87, _⟩ => ⟨S50000x32, .f32⟩
  | .hbm, ⟨88, _⟩ => ⟨S1x32, .f32⟩
  | .hbm, ⟨89, _⟩ => ⟨S50000x32, .f32⟩
  | .hbm, ⟨90, _⟩ => ⟨S50000x32, .f32⟩
  | .hbm, ⟨91, _⟩ => ⟨S_, .f32⟩
  | .hbm, ⟨92, _⟩ => ⟨S50000x32, .f32⟩
  | .hbm, ⟨93, _⟩ => ⟨S50000x32, .f32⟩
  | .hbm, ⟨94, _⟩ => ⟨S50000x32, .f32⟩
  | .hbm, ⟨95, _⟩ => ⟨S50000x32, .f32⟩
  | .hbm, ⟨96, _⟩ => ⟨S50000x32, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x32, .f32⟩
  | .hbm, ⟨106, _⟩ => ⟨S_, .i32⟩
  | .hbm, ⟨107, _⟩ => ⟨S1600000, .i32⟩
  | .hbm, ⟨108, _⟩ => ⟨S1600000, .i1⟩
  | .hbm, ⟨109, _⟩ => ⟨S_, .i32⟩
  | .hbm, ⟨110, _⟩ => ⟨S1600000, .i32⟩
  | .hbm, ⟨111, _⟩ => ⟨S1600000, .i32⟩
  | .hbm, ⟨112, _⟩ => ⟨S1600000, .i32⟩
  | .hbm, ⟨113, _⟩ => ⟨S1600000x1, .i32⟩
  | .hbm, ⟨114, _⟩ => ⟨S1600000x32, .f32⟩
  | .hbm, ⟨115, _⟩ => ⟨S1600000x32, .f32⟩
  | .hbm, ⟨116, _⟩ => ⟨S_, .f32⟩
  | .hbm, ⟨117, _⟩ => ⟨S1600000, .f32⟩
  | .hbm, ⟨118, _⟩ => ⟨S1600000, .f32⟩
  | .hbm, ⟨119, _⟩ => ⟨S1600000, .f32⟩
  | .hbm, ⟨120, _⟩ => ⟨S_, .f32⟩
  | .hbm, ⟨121, _⟩ => ⟨S1600000, .f32⟩
  | .hbm, ⟨122, _⟩ => ⟨S1600000, .f32⟩
  | .hbm, ⟨123, _⟩ => ⟨S_, .f32⟩
  | .hbm, ⟨124, _⟩ => ⟨S1600000, .f32⟩
  | .hbm, ⟨125, _⟩ => ⟨S1600000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call1_cst : Ref sig .tc := ⟨.hbm, 80, rfl⟩
abbrev main_call1_v0 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_11 : Ref sig .tc := ⟨.hbm, 97, rfl⟩
abbrev main_v67 : Ref sig .tc := ⟨.hbm, 98, rfl⟩
abbrev main_v68 : Ref sig .tc := ⟨.hbm, 99, rfl⟩
abbrev main_c_12 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_13 : Ref sig .tc := ⟨.hbm, 106, rfl⟩
abbrev main_v74 : Ref sig .tc := ⟨.hbm, 107, rfl⟩
abbrev main_v75 : Ref sig .tc := ⟨.hbm, 108, rfl⟩
abbrev main_c_14 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  reducesTo_S1600000x32_S1600000_d1 : S1600000x32.ReducesTo [1] S1600000
  h_S_ : 0 < S_.numel
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000x1_S1600000x1_S1600000x1_1_0_0_1_wf : ScatterDims.WF S50000x1 S1600000x1 S1600000x1 [1] [0] [0] 1
  dot_S50000x128_S128x128_S50000x128_1_0_0_1_n_n_wf : DotDims.WF S50000x128 S128x128 S50000x128 [1] [0] [0] [1] [] []
  dot_S50000x128_S128x32_S50000x32_1_0_0_1_n_n_wf : DotDims.WF S50000x128 S128x32 S50000x32 [1] [0] [0] [1] [] []
  gather_S50000x32_S1600000x1_S1600000x32_1_0_n_n_0_1_132_wf : GatherDims.WF S50000x32 S1600000x1 S1600000x32 [1] [0] [] [0] [] 1 ![1, 32]

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf

class Facts : Prop extends Facts₀ where

variable [Facts]
-- ==== Proof.KRun.lean ====
/-
  The idealized kernel program's run with its results named.  Every weakly fair execution of the program terminates
  without a fault; at the end each result buffer holds what the last stretch of host operations leaves in it (the
  fold of the program's host operations and of its four regions' write-backs from the launch memory), and the
  argument arrays hold what they held at launch.
-/
import proofs.«141248_j5162550690506_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: each result buffer ends at the last boundary's contents, each argument array as launched. -/
theorem run : θ_run defs (onTc (τ := τ) (main (F := F))) ⟨m, fun _ => 0, ρ⟩ (fun r => ∀ c : Dev nD,
      r.2.mem ((c.tc : Thread nD τ).loc main_v57) = W9 m ρ c (Proc.devRef .tc main_v57)
      ∧ r.2.mem ((c.tc : Thread nD τ).loc main_v40_0) = W9 m ρ c (Proc.devRef .tc main_v40_0)
      ∧ r.2.mem ((c.tc : Thread nD τ).loc main_v40_1) = W9 m ρ c (Proc.devRef .tc main_v40_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v57 (by decide)),
       h c _ (mem_uc main_v40_0 (by decide)),
       h c _ (mem_uc main_v40_1 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.Results

end
-- ==== Proof.LibEdgeIdx.lean ====
/-
  Gathers and an accumulating scatter through ONE column of integer start indices `idx : [E, 1]`, read at an index.

  * `Host.gather` of rows: result row `e` of `x[idx]` for `x : [N, D]` is row `clamp (idx[e, 0])` of `x`, the start index
    read as a signed integer and clamped into `[0, N − 1]`; for a flat `x : [N]` the same with no feature axis.
  * the accumulating scatter of rows `upd : [E, D]` into `[N, D]`: update element `(e, k)` lands on `(n, k)` exactly when
    the start index `idx[e, 0]`, read signed and NOT clamped, is `n`; an update whose start index is outside
    `[0, N)` lands nowhere.  So the sum of the update elements that land on `(n, k)` is the sum over the edges `e` whose
    start index is `n` of `upd (e, k)`.
-/
import Idealize.ShloMosaic.Lib.ValueIdx
import Idealize.ShloMosaic.PureOps.Ideal

noncomputable section

namespace Cert.LibEdgeIdx

open Idealize.ShloMosaic Idealize.ShloMosaic.ValueIdx

variable {α : Type}

/-- The start-index position `[e, 0]` of edge `e`. -/
abbrev edgeAt {E : Nat} (e : Fin E) : (⟨2, ![E, 1]⟩ : Shape).Idx := ix2 e ⟨0, Nat.one_pos⟩

/-- A start index read signed and clamped into `[0, N − 1]`. -/
def clampIdx {w : Nat} (N : Nat) (hN : 0 < N) (b : BitVec w) : Fin N := ⟨min b.toInt.toNat (N - 1), by omega⟩

/-! ## Rows gathered through a column of start indices -/

/-- The dimension numbers of `x[idx]` for `x : [N, D]`, `idx : [E, 1]`: the row axis collapsed and indexed, the feature
    axis carried whole. -/
abbrev rowGatherDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Row `e`, feature `k` of the gathered array is feature `k` of the row the clamped start index names. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N E D wf) x idx (ix2 e k) = x (ix2 (clampIdx N hN (idx (edgeAt e))) k) := by
  unfold Host.gather
  congr 1
  funext a
  match a with
  | ⟨0, _⟩ =>
    refine Fin.ext ?_
    show (rowGatherDims N E D wf).start (ix2 e k) idx 0 + (rowGatherDims N E D wf).batchCoord (ix2 e k) 0
      + (rowGatherDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e k) ⟨List.idxOf (0 : Fin 2) (rowGatherDims N E D wf).startIndexMap,
        List.idxOf_lt_length_iff.2 (List.mem_singleton.mpr rfl)⟩ = edgeAt e := by
      funext b; refine Fin.ext ?_
      match b with
      | ⟨0, _⟩ => rfl
      | ⟨1, _⟩ => rfl
    rw [hsi]
    rfl
  | ⟨1, _⟩ =>
    refine Fin.ext ?_
    show (rowGatherDims N E D wf).start (ix2 e k) idx 1 + (rowGatherDims N E D wf).batchCoord (ix2 e k) 1
      + (rowGatherDims N E D wf).offCoord (ix2 e k) 1 = k.val
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept (rowGatherDims N E D wf) 1).mpr ⟨(show (1 : Fin 2) ∉ ([0] : List (Fin 2)) by decide), List.not_mem_nil⟩)]
    have hs : (rowGatherDims N E D wf).sKept = [1] := by
      first
      | rfl
      | decide
      | (simp [GatherDims.sKept, Shape.kept]; done)
    have hi : List.idxOf (1 : Fin 2) (rowGatherDims N E D wf).sKept = 0 := by rw [hs]; simp
    simp only [hi, List.getElem_cons_zero, Nat.zero_add]
    rfl

/-! ## A flat array gathered through a column of start indices -/

/-- The dimension numbers of `x[idx]` for a flat `x : [N]`, `idx : [E, 1]`. -/
abbrev flatGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered array is the entry the clamped start index names. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e) = x (ix1 (clampIdx N hN (idx (edgeAt e)))) := by
  unfold Host.gather
  congr 1
  funext a
  obtain rfl : a = 0 := Subsingleton.elim _ _
  refine Fin.ext ?_
  show (flatGatherDims N E wf).start (ix1 e) idx 0 + (flatGatherDims N E wf).batchCoord (ix1 e) 0
    + (flatGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx (ix1 e) ⟨List.idxOf (0 : Fin 1) (flatGatherDims N E wf).startIndexMap,
      List.idxOf_lt_length_iff.2 (List.mem_singleton.mpr rfl)⟩ = edgeAt e := by
    funext b; refine Fin.ext ?_
    match b with
    | ⟨0, _⟩ => rfl
    | ⟨1, _⟩ => rfl
  rw [hsi]
  rfl

/-! ## Rows scattered through a column of start indices -/

/-- The dimension numbers of `zeros[N, D].at[idx].add(upd)` for `idx : [E, 1]`, `upd : [E, D]`. -/
abbrev rowScatterDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Edge `e`'s message lands on node `n`: its start index, read signed, is `n`. -/
def landsOn {E N w : Nat} (idx : IVec ⟨2, ![E, 1]⟩ w) (e : Fin E) (n : Fin N) : Prop := (idx (edgeAt e)).toInt = (n.val : Int)

instance {E N w : Nat} (idx : IVec ⟨2, ![E, 1]⟩ w) (e : Fin E) (n : Fin N) : Decidable (landsOn idx e n) := by
  unfold landsOn; infer_instance

/-- The start of update `(e, k)`'s window on the row axis is edge `e`'s start index, read signed. -/
theorem rowScatter_start0 {N E D w : Nat} (wf : ScatterDims.WF ⟨2, ![N, D]⟩ ⟨2, ![E, 1]⟩ ⟨2, ![E, D]⟩ [1] [0] [0] 1)
    (idx : IVec ⟨2, ![E, 1]⟩ w) (e : Fin E) (k : Fin D) :
    (rowScatterDims N E D wf).start (ix2 e k) idx 0 = (idx (edgeAt e)).toInt := by
  unfold ScatterDims.start
  rw [dif_pos (show (0 : Fin 2) ∈ (rowScatterDims N E D wf).scatterDimsToOperandDims from List.mem_singleton.mpr rfl)]
  have hsi : (rowScatterDims N E D wf).siIdx (ix2 e k) ⟨List.idxOf (0 : Fin 2) (rowScatterDims N E D wf).scatterDimsToOperandDims,
      List.idxOf_lt_length_iff.2 (List.mem_singleton.mpr rfl)⟩ = edgeAt e := by
    funext b; refine Fin.ext ?_
    match b with
    | ⟨0, _⟩ => rfl
    | ⟨1, _⟩ => rfl
  rw [hsi]

/-- On the feature axis the window starts at zero. -/
theorem rowScatter_start1 {N E D w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) :
    (rowScatterDims N E D wf).start j idx 1 = 0 := by
  unfold ScatterDims.start
  rw [dif_neg (show (1 : Fin 2) ∉ ([0] : List (Fin 2)) by decide)]

/-- The window coordinate is zero on the row axis and the update's feature on the feature axis. -/
theorem rowScatter_window0 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 0 = 0 := by
  unfold ScatterDims.window
  rw [dif_neg (show (0 : Fin 2) ∉ (rowScatterDims N E D wf).sKept by simp [ScatterDims.sKept, Shape.kept, List.mem_filter, List.mem_finRange])]
theorem rowScatter_window1 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 1 = (j 1).val := by
  unfold ScatterDims.window
  rw [dif_pos (show (1 : Fin 2) ∈ (rowScatterDims N E D wf).sKept by simp [ScatterDims.sKept, Shape.kept, List.mem_filter, List.mem_finRange])]
  rfl

/-- Update `(e, k)` lands on `(n, k')` exactly when edge `e` lands on node `n` and the features agree. -/
theorem rowScatter_resultIdx_iff {N E D w : Nat} (wf : ScatterDims.WF ⟨2, ![N, D]⟩ ⟨2, ![E, 1]⟩ ⟨2, ![E, D]⟩ [1] [0] [0] 1)
    (idx : IVec ⟨2, ![E, 1]⟩ w) (e : Fin E) (k : Fin D) (n : Fin N) (k' : Fin D) :
    (rowScatterDims N E D wf).resultIdx? (ix2 e k) idx = some (ix2 n k') ↔ landsOn idx e n ∧ k = k' := by
  unfold ScatterDims.resultIdx? landsOn
  have h0 := rowScatter_start0 wf idx e k
  have h1 := rowScatter_start1 wf idx (ix2 e k)
  have w0 := rowScatter_window0 wf (ix2 e k)
  have w1 := rowScatter_window1 wf (ix2 e k)
  constructor
  · intro h
    split at h
    · rename_i hall
      have hs := Option.some.inj h
      have e0 := congrArg (fun f => (f 0).val) hs
      have e1 := congrArg (fun f => (f 1).val) hs
      simp only [h0, h1, w0, w1] at e0 e1
      have hr0 := hall 0
      simp only [h0, w0] at hr0
      refine ⟨?_, Fin.ext ?_⟩
      · have : ((idx (edgeAt e)).toInt + ((0 : Nat) : Int)).toNat = n.val := e0
        omega
      · have : ((0 : Int) + (((ix2 e k : (⟨2, ![E, D]⟩ : Shape).Idx) 1).val : Int)).toNat = k'.val := e1
        have hk : ((ix2 e k : (⟨2, ![E, D]⟩ : Shape).Idx) 1).val = k.val := rfl
        omega
    · exact absurd h (by simp)
  · rintro ⟨hl, rfl⟩
    have hall : ∀ a : Fin 2, 0 ≤ (rowScatterDims N E D wf).start (ix2 e k) idx a + (rowScatterDims N E D wf).window (ix2 e k) a ∧
        (rowScatterDims N E D wf).start (ix2 e k) idx a + (rowScatterDims N E D wf).window (ix2 e k) a < (⟨2, ![N, D]⟩ : Shape).size a := by
      intro a
      match a with
      | ⟨0, _⟩ =>
        show 0 ≤ (rowScatterDims N E D wf).start (ix2 e k) idx 0 + (rowScatterDims N E D wf).window (ix2 e k) 0 ∧
          (rowScatterDims N E D wf).start (ix2 e k) idx 0 + (rowScatterDims N E D wf).window (ix2 e k) 0 < (N : Int)
        rw [h0, w0, hl]; have := n.isLt; omega
      | ⟨1, _⟩ =>
        show 0 ≤ (rowScatterDims N E D wf).start (ix2 e k) idx 1 + (rowScatterDims N E D wf).window (ix2 e k) 1 ∧
          (rowScatterDims N E D wf).start (ix2 e k) idx 1 + (rowScatterDims N E D wf).window (ix2 e k) 1 < (D : Int)
        rw [h1, w1]; have := k.isLt
        have hk : ((ix2 e k : (⟨2, ![E, D]⟩ : Shape).Idx) 1).val = k.val := rfl
        omega
    rw [dif_pos hall]
    congr 1
    funext a
    match a with
    | ⟨0, _⟩ =>
      refine Fin.ext ?_
      show ((rowScatterDims N E D wf).start (ix2 e k) idx 0 + (rowScatterDims N E D wf).window (ix2 e k) 0).toNat = n.val
      rw [h0, w0, hl]; omega
    | ⟨1, _⟩ =>
      refine Fin.ext ?_
      show ((rowScatterDims N E D wf).start (ix2 e k) idx 1 + (rowScatterDims N E D wf).window (ix2 e k) 1).toNat = k.val
      rw [h1, w1]
      have hk : ((ix2 e k : (⟨2, ![E, D]⟩ : Shape).Idx) 1).val = k.val := rfl
      omega

/-- The update elements that land on `(n, k)`, summed: the edges that land on `n`, each giving its feature `k`. -/
theorem rowScatter_sum {M : Type} [AddCommMonoid M] {N E D w : Nat}
    (wf : ScatterDims.WF ⟨2, ![N, D]⟩ ⟨2, ![E, 1]⟩ ⟨2, ![E, D]⟩ [1] [0] [0] 1)
    (idx : IVec ⟨2, ![E, 1]⟩ w) (upd : (⟨2, ![E, D]⟩ : Shape).Idx → M) (n : Fin N) (k : Fin D) :
    ∑ j ∈ Finset.univ.filter (fun j => (rowScatterDims N E D wf).resultIdx? j idx = some (ix2 n k)), upd j
      = ∑ e ∈ Finset.univ.filter (fun e => landsOn idx e n), upd (ix2 e k) := by
  rw [Finset.sum_filter, sum_idx2, Finset.sum_filter]
  refine Finset.sum_congr rfl fun e _ => ?_
  by_cases hl : landsOn idx e n
  · rw [if_pos hl]
    rw [Finset.sum_eq_single k]
    · rw [if_pos ((rowScatter_resultIdx_iff wf idx e k n k).mpr ⟨hl, rfl⟩)]
    · intro k' _ hne
      rw [if_neg (fun h => hne ((rowScatter_resultIdx_iff wf idx e k' n k).mp h).2)]
    · intro h; exact absurd (Finset.mem_univ k) h
  · rw [if_neg hl]
    refine Finset.sum_eq_zero fun k' _ => ?_
    rw [if_neg (fun h => hl ((rowScatter_resultIdx_iff wf idx e k' n k).mp h).1)]

end Cert.LibEdgeIdx

end
-- ==== Proof.Spec.lean ====
/-
  The mathematics both programs compute, entry by entry, on the extended reals.

  A graph layer takes node features `h : [N, D]`, their neighbourhood means `a : [N, D]`, two weight matrices and a bias,
  and returns `max (a·Wl + h·Wr + b, 0)`.  The two heads are affine maps `h·W + b` of the last layer's features; the
  latent sample is `mu + eps · exp (½ · logvar)`; an edge's score is the logistic function of the inner product of the
  latent rows of its two endpoints, each endpoint a start index read signed and clamped into the node range.
-/
import Idealize.ShloMosaic.Lib.ValueIdx
import Idealize.ShloMosaic.PureOps.Ideal
import proofs.«141248_j5162550690506_1_alg».proof.Proof.LibEdgeIdx

noncomputable section

namespace Cert.Spec

open Idealize.ShloMosaic Idealize.ShloMosaic.ValueIdx Cert.LibEdgeIdx

/-- A rank-2 shape from its two extents. -/
abbrev Sh2 (a b : Nat) : Shape := ⟨2, ![a, b]⟩

/-- Entry (p, q) of the matrix product `a · W`: the sum over the shared axis. -/
def mm {m K n : Nat} (a : (Sh2 m K).Idx → EReal) (W : (Sh2 K n).Idx → EReal) (p : Fin m) (q : Fin n) : EReal :=
  ∑ k : Fin K, a (ix2 p k) * W (ix2 k q)

/-- Entry (p, q) of a graph layer: `max (a·Wl + h·Wr + b, 0)`. -/
def combineAt {N D D' : Nat} (a h : (Sh2 N D).Idx → EReal) (Wl Wr : (Sh2 D D').Idx → EReal) (b : Fin D' → EReal)
    (p : Fin N) (q : Fin D') : EReal :=
  max (mm a Wl p q + mm h Wr p q + b q) 0

/-- The graph layer as an array. -/
def combine {N D D' : Nat} (a h : (Sh2 N D).Idx → EReal) (Wl Wr : (Sh2 D D').Idx → EReal) (b : Fin D' → EReal) :
    (Sh2 N D').Idx → EReal := fun i => combineAt a h Wl Wr b (i 0) (i 1)

theorem combine_ix2 {N D D' : Nat} (a h : (Sh2 N D).Idx → EReal) (Wl Wr : (Sh2 D D').Idx → EReal) (b : Fin D' → EReal)
    (p : Fin N) (q : Fin D') : combine a h Wl Wr b (ix2 p q) = combineAt a h Wl Wr b p q := rfl

/-- Entry (p, q) of an affine head: `h·W + b`. -/
def affineAt {N D L : Nat} (h : (Sh2 N D).Idx → EReal) (W : (Sh2 D L).Idx → EReal) (b : Fin L → EReal)
    (p : Fin N) (q : Fin L) : EReal := mm h W p q + b q

/-- The affine head as an array. -/
def affine {N D L : Nat} (h : (Sh2 N D).Idx → EReal) (W : (Sh2 D L).Idx → EReal) (b : Fin L → EReal) :
    (Sh2 N L).Idx → EReal := fun i => affineAt h W b (i 0) (i 1)

theorem affine_ix2 {N D L : Nat} (h : (Sh2 N D).Idx → EReal) (W : (Sh2 D L).Idx → EReal) (b : Fin L → EReal)
    (p : Fin N) (q : Fin L) : affine h W b (ix2 p q) = affineAt h W b p q := rfl

/-- The value one half, as the binary32 word both programs spell. -/
abbrev half : EReal := Ideal.ofBits .f32 0x3F000000#32

/-- The latent sample: `mu + eps · exp (½ · logvar)`, entry by entry. -/
def sample {S : Shape} (mu lv eps : S.Idx → EReal) : S.Idx → EReal :=
  fun i => mu i + eps i * Ideal.exp (half * lv i)

/-- Edge `e`'s score: the logistic function of the inner product of the latent rows of its two endpoints; each
    endpoint is the edge's start index in a column of integers, read signed and clamped into the node range. -/
def decodeAt {N E L w : Nat} (hN : 0 < N) (z : (Sh2 N L).Idx → EReal) (iS iD : IVec (Sh2 E 1) w) (e : Fin E) : EReal :=
  Ideal.logistic (∑ c : Fin L, z (ix2 (clampIdx N hN (iS (edgeAt e))) c) * z (ix2 (clampIdx N hN (iD (edgeAt e))) c))

end Cert.Spec

end
-- ==== Proof.Chain.lean ====
/-
  The host side of the idealized kernel program, as functions of whole arrays, and the program's three results as one
  composition.

  From the edge array `e : [2, E]`: row 0 is the source column, row 1 the destination column.  A column used as a gather
  index is first wrapped (a negative index has the node count added) and made an `[E, 1]` column; the destination column
  used as a scatter index is made an `[E, 1]` column as it is.  The in-degree count is the scatter-sum of ones at the
  destinations, at least one.  The neighbourhood mean of node features `h` is the scatter-sum at the destinations of the
  rows of `h` gathered at the sources, divided by the count.  A layer is the graph layer of the mean and the features;
  the program is two layers, the two affine heads, the latent sample and the edge scores.
-/
import proofs.«141248_j5162550690506_1_alg».proof.Proof.Gen.KernelIdeal
import proofs.«141248_j5162550690506_1_alg».proof.Proof.Spec

noncomputable section

namespace Cert.KernelIdeal.Chain

open Cert.KernelIdeal Cert.KernelIdeal.Gen Idealize.ShloMosaic Idealize.ShloMosaic.TcCoe Idealize.SL.Sem Idealize.ShloMosaic.ValueIdx

/-- An integer array and a float array of a shape, at exact arithmetic. -/
abbrev IArr (S : Shape) : Type := (⟨S, .i32⟩ : BufTy).Contents (Elt Ideal)
abbrev FArr (S : Shape) : Type := (⟨S, .f32⟩ : BufTy).Contents (Elt Ideal)

/-- The source column: row 0 of the edge array. -/
def src (e : IArr S2x1600000) : IArr S1600000 :=
  shapeCast S1600000 (extractStridedSlice S1x1600000 ![0, 0] e slices_S2x1600000_S1x1600000_0_0) shapeCasts_S1x1600000_S1600000

/-- The destination column: row 1 of the edge array. -/
def dst (e : IArr S2x1600000) : IArr S1600000 :=
  shapeCast S1600000 (extractStridedSlice S1x1600000 ![1, 0] e slices_S2x1600000_S1x1600000_1_0) shapeCasts_S1x1600000_S1600000

/-- A column as a gather index: a negative index has the node count added; then an `[E, 1]` column. -/
def col (v : IArr S1600000) : IArr S1600000x1 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 50000#32))) v)

/-- A column as a scatter index: an `[E, 1]` column, as it is. -/
def raw (v : IArr S1600000) : IArr S1600000x1 := broadcastInDim S1600000x1 ![0] bcast_S1600000_S1600000x1_0 v

/-- The in-degree count of every node, at least one. -/
def cnt (e : IArr S2x1600000) : FArr S50000x1 :=
  maximumf
    (Host.scatterAdd scatter_S50000x1_S1600000x1_S1600000x1_1_0_0_1
      (broadcastInDim S50000x1 ![] bcast_S_S50000x1 (constant (F := Ideal) S_ .f32 0x00000000#32))
      (raw (dst e))
      (broadcastInDim S1600000x1 ![] bcast_S_S1600000x1 (constant (F := Ideal) S_ .f32 0x3F800000#32)))
    (broadcastInDim S50000x1 ![] bcast_S_S50000x1 (constant (F := Ideal) S_ .f32 0x3F800000#32))

/-- The neighbourhood mean of node features: rows gathered at the sources, summed at the destinations, over the count. -/
def agg (e : IArr S2x1600000) (h : FArr S50000x128) : FArr S50000x128 :=
  Host.divf
    (Host.scatterAdd scatter_S50000x128_S1600000x1_S1600000x128_1_0_0_1
      (broadcastInDim S50000x128 ![] bcast_S_S50000x128 (constant (F := Ideal) S_ .f32 0x00000000#32))
      (raw (dst e))
      (Host.gather gather_S50000x128_S1600000x1_S1600000x128_1_0_n_n_0_1_1128 h (col (src e))))
    (broadcastInDim S50000x128 ![0, 1] bcast_S50000x1_S50000x128_0_1 (cnt e))

/-- One graph layer: the layer's formula at the neighbourhood mean and the features. -/
def layer (e : IArr S2x1600000) (h : FArr S50000x128) (Wl Wr : FArr S128x128) (b : FArr S128) : FArr S50000x128 :=
  Spec.combine (agg e h) h Wl Wr (fun q => b (ix1 q))

/-- An affine head of the features. -/
def head (h : FArr S50000x128) (W : FArr S128x32) (b : FArr S32) : FArr S50000x32 :=
  Spec.affine h W (fun q => b (ix1 q))

/-- Every edge's score from the latent array. -/
def scores (e : IArr S2x1600000) (z : FArr S50000x32) : FArr S1600000 :=
  fun i => Spec.decodeAt (N := 50000) (by decide) z (col (src e)) (col (dst e)) (i 0)

/-- The features after the two layers. -/
def feats (x : FArr S50000x128) (e : IArr S2x1600000) (Wl0 Wr0 : FArr S128x128) (b0 : FArr S128) (Wl1 Wr1 : FArr S128x128)
    (b1 : FArr S128) : FArr S50000x128 :=
  layer e (layer e x Wl0 Wr0 b0) Wl1 Wr1 b1

end Cert.KernelIdeal.Chain

end
-- ==== Proof.LibDotEntries.lean ====
/-
  A plain matrix product read at an entry, in a kernel and on the host. At exact arithmetic the product of an m×K
  matrix by a K×n matrix — the left factor's columns contracted against the right factor's rows, no batch axis — has at
  entry (p, q) the sum over k of left (p, k) · right (k, q): a kernel's matrix unit product into a zero accumulator,
  whatever the formats its factors were rounded to on the way in, and the host's product, whatever the order it sums in.
-/
import Idealize.ShloMosaic.Lib.ValueIdx
import Idealize.ShloMosaic.PureOps.Ideal.Laws

noncomputable section

namespace Cert.Lib.DotEntries

open Idealize.ShloMosaic Idealize.ShloMosaic.TcCoe Idealize.SL.Sem Idealize.ShloMosaic.ValueIdx

/-- The sum over the one contracted axis of a plain product, re-indexed by `k : Fin K`: the left factor is read at
    (p, k), the right factor at (k, q). -/
theorem plain_sum {m K n : Nat} (lhs : (⟨2, ![m, K]⟩ : Shape).Idx → EReal) (rhs : (⟨2, ![K, n]⟩ : Shape).Idx → EReal)
    (p : Fin m) (q : Fin n) :
    ∑ c : (DotDims.plain m K n).contr.Idx,
        lhs ((DotDims.plain m K n).lhsIdx (ix2 p q) c) * rhs ((DotDims.plain m K n).rhsIdx (ix2 p q) c)
      = ∑ k : Fin K, lhs (ix2 p k) * rhs (ix2 k q) := by
  rw [← Equiv.sum_comp (contrEquiv1 (DotDims.plain m K n) K rfl rfl).symm]
  refine Finset.sum_congr rfl fun k _ => ?_
  have hk := contrEquiv1_symm_val (DotDims.plain m K n) K rfl rfl k
  have el : (DotDims.plain m K n).lhsIdx (ix2 p q) ((contrEquiv1 (DotDims.plain m K n) K rfl rfl).symm k) = ix2 p k :=
    funext fun a => Fin.ext (by
      match a with
      | ⟨0, _⟩ => rfl
      | ⟨1, _⟩ => exact hk)
  have er : (DotDims.plain m K n).rhsIdx (ix2 p q) ((contrEquiv1 (DotDims.plain m K n) K rfl rfl).symm k) = ix2 k q :=
    funext fun a => Fin.ext (by
      match a with
      | ⟨0, _⟩ => exact hk
      | ⟨1, _⟩ => rfl)
  rw [el, er]

/-- A kernel's plain product into a zero accumulator, read at entry (p, q). -/
theorem matmul_plain_ix2 {m K n : Nat} {φ₁ φ₂ : FTy} (lhs : FVec Ideal ⟨2, ![m, K]⟩ φ₁) (rhs : FVec Ideal ⟨2, ![K, n]⟩ φ₂)
    (p : Fin m) (q : Fin n) :
    matmul (DotDims.plain m K n) none lhs rhs (constant (F := Ideal) ⟨2, ![m, n]⟩ .f32 0x00000000#32) (ix2 p q)
      = ∑ k : Fin K, lhs (ix2 p k) * rhs (ix2 k q) :=
  (Ideal.matmul_constant_zero_apply (DotDims.plain m K n) none lhs rhs (ix2 p q)).trans (plain_sum lhs rhs p q)

/-- The host's plain product, read at entry (p, q). -/
theorem dotGeneral_plain_ix2 {m K n : Nat} (lhs : FVec Ideal ⟨2, ![m, K]⟩ .f32) (rhs : FVec Ideal ⟨2, ![K, n]⟩ .f32)
    (p : Fin m) (q : Fin n) :
    Host.dotGeneral (F := Ideal) (DotDims.plain m K n) none lhs rhs (ix2 p q)
      = ∑ k : Fin K, lhs (ix2 p k) * rhs (ix2 k q) := by
  simp only [Host.dotGeneral]
  exact (Ideal.dotGeneral_apply (DotDims.plain m K n) none _ lhs rhs (ix2 p q)).trans (plain_sum lhs rhs p q)

end Cert.Lib.DotEntries

end
-- ==== Proof.Reg0.lean ====
/-
  Region 0 of the idealized kernel program: a graph layer over row blocks.

  The grid has 25 points; point `t` reads rows `2000·t … 2000·t + 1999` of the neighbourhood means and of the node
  features, the two whole weight matrices and the one bias row, and writes the same rows of the result.  Entry (p, q) of
  the block it writes is `max (Σₖ mean(p,k)·Wl(k,q) + Σₖ h(p,k)·Wr(k,q) + b(q), 0)` of its block's rows — the two matrix
  unit products into zero accumulators are plain sums at exact arithmetic, the roundings on the way in are the
  identity —, and the 25 row blocks tile the array: so the region leaves the whole layer, one function of the arrays it
  found at entry.
-/
import proofs.«141248_j5162550690506_1_alg».proof.Proof.Gen.KernelIdeal.Frame
import proofs.«141248_j5162550690506_1_alg».proof.Proof.Spec
import proofs.«141248_j5162550690506_1_alg».proof.Proof.LibDotEntries
import Idealize.ShloMosaic.Lib.Pipeline.Value
import Idealize.ShloMosaic.Lib.ValueIdx
import Idealize.ShloMosaic.Lib.ValueLayout

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx Cert.Lib.DotEntries

variable (V : (c : Dev nD) → (b : Ref sig .tc) → Buf (Elt Ideal) ((c : Thread nD τ).loc b))

theorem hz : (![0, 0] : Fin 2 → Nat) = fun _ => 0 := funext fun a => by fin_cases a <;> rfl

/-- The block product's dimension numbers are the plain ones: rows by the contraction, the contraction by columns. -/
theorem rec_eq : dot_S2000x128_S128x128_S2000x128_1_0_0_1_n_n = DotDims.plain 2000 128 128 := rfl

/-- Entry (p, q) of the value the body stores, from the blocks it loads: the layer's formula on the block's rows. -/
theorem pay_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q) = Spec.combineAt x0 x1 x2 x3 (fun q => x4 (ix2 (0 : Fin 1) q)) p q := by
  unfold k0_pay1 Spec.combineAt Spec.mm
  simp only [maximumf_apply, addf_apply, broadcast_apply]
  have hA : ∀ (a : Vec Ideal S2000x128 .f32) (w : Vec Ideal S128x128 .f32),
      matmul dot_S2000x128_S128x128_S2000x128_1_0_0_1_n_n none (truncf .bf16 a bitsLt_bf16_f32) (truncf .bf16 w bitsLt_bf16_f32)
        (constant (F := Ideal) S2000x128 .f32 0x00000000#32) (ix2 p q) = ∑ k : Fin 128, a (ix2 p k) * w (ix2 k q) := by
    intro a w
    rw [rec_eq]
    exact matmul_plain_ix2 (truncf .bf16 a bitsLt_bf16_f32) (truncf .bf16 w bitsLt_bf16_f32) p q
  have hC : broadcastTo S2000x128 (shapeCast S1x128 x4 shapeCasts_S1x128_S1x128) broadcasts_S1x128_S2000x128 (ix2 p q)
      = x4 (ix2 (0 : Fin 1) q) := by
    rw [shapeCast_self]
    exact broadcastTo_1b_ab_apply x4 _ p q
  rw [hA, hA, hC, Ideal.ofBits_def, Ideal.ofBits_zero_f32]
  try rw [shapeCast_self]
  try rw [shapeCast_self]

/-- The layer as one function of the arrays the region finds at entry. -/
def G (c : Dev nD) : Vec Ideal S50000x128 .f32 :=
  Spec.combine (V c main_v21) (V c main_arg0) (V c main_arg3) (V c main_arg4) (fun q => V c main_v22 (ix2 (0 : Fin 1) q))

/-- The printed index maps, decided over the grid: the row-blocked windows sit at block row `t`, the whole-array
    windows at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 25 := lt_of_lt_of_eq t.isLt N_0

/-- WHAT POINT `t` WRITES BACK is block `t` of the layer. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨a, b, rfl⟩ : ∃ (a : Fin 2000) (b : Fin 128), j = ix2 a b := ⟨j 0, j 1, eq_ix2 j⟩
  show k0_pay1 (iblk0 V c 0 t) (iblk0 V c 1 t) (iblk0 V c 2 t) (iblk0 V c 3 t) (iblk0 V c 4 t) (ix2 a b)
    = G V c (((cfg0.win 5).blk t).view.emb (ix2 a b))
  refine (pay_apply (iblk0 V c 0 t) (iblk0 V c 1 t) (iblk0 V c 2 t) (iblk0 V c 3 t) (iblk0 V c 4 t) a b).trans ?_
  obtain ⟨e00, e01, e10, e11, e20, e21, e30, e31, e40, e41, e50, e51⟩ := idx_facts t
  have ht := t_lt t
  have hb : t.val * 2000 + a.val < 50000 := by have := a.isLt; omega
  have e5 : ((cfg0.win 5).blk t).view.emb (ix2 a b) = ix2 (⟨t.val * 2000 + a.val, hb⟩ : Fin 50000) b := by
    funext ax; apply Fin.ext
    match ax with
    | ⟨0, _⟩ => show win0_5.index t (0 : Fin 2) * 2000 + 1 * a.val = t.val * 2000 + a.val; omega
    | ⟨1, _⟩ => show win0_5.index t (1 : Fin 2) * 128 + 1 * b.val = b.val; omega
  rw [e5]
  unfold G
  rw [Spec.combine_ix2]
  unfold Spec.combineAt Spec.mm
  have r0 : ∀ k : Fin 128, iblk0 V c 0 t (ix2 a k) = V c main_v21 (ix2 (⟨t.val * 2000 + a.val, hb⟩ : Fin 50000) k) := fun k => by
    show V c main_v21 (((cfg0.win 0).blk t).view.emb (ix2 a k)) = _
    refine congrArg _ (funext fun ax => Fin.ext ?_)
    match ax with
    | ⟨0, _⟩ => show win0_0.index t (0 : Fin 2) * 2000 + 1 * a.val = t.val * 2000 + a.val; omega
    | ⟨1, _⟩ => show win0_0.index t (1 : Fin 2) * 128 + 1 * k.val = k.val; omega
  have r1 : ∀ k : Fin 128, iblk0 V c 1 t (ix2 a k) = V c main_arg0 (ix2 (⟨t.val * 2000 + a.val, hb⟩ : Fin 50000) k) := fun k => by
    show V c main_arg0 (((cfg0.win 1).blk t).view.emb (ix2 a k)) = _
    refine congrArg _ (funext fun ax => Fin.ext ?_)
    match ax with
    | ⟨0, _⟩ => show win0_1.index t (0 : Fin 2) * 2000 + 1 * a.val = t.val * 2000 + a.val; omega
    | ⟨1, _⟩ => show win0_1.index t (1 : Fin 2) * 128 + 1 * k.val = k.val; omega
  have r2 : ∀ k : Fin 128, iblk0 V c 2 t (ix2 k b) = V c main_arg3 (ix2 k b) := fun k => by
    show V c main_arg3 (((cfg0.win 2).blk t).view.emb (ix2 k b)) = _
    refine congrArg _ (funext fun ax => Fin.ext ?_)
    match ax with
    | ⟨0, _⟩ => show win0_2.index t (0 : Fin 2) * 128 + 1 * k.val = k.val; omega
    | ⟨1, _⟩ => show win0_2.index t (1 : Fin 2) * 128 + 1 * b.val = b.val; omega
  have r3 : ∀ k : Fin 128, iblk0 V c 3 t (ix2 k b) = V c main_arg4 (ix2 k b) := fun k => by
    show V c main_arg4 (((cfg0.win 3).blk t).view.emb (ix2 k b)) = _
    refine congrArg _ (funext fun ax => Fin.ext ?_)
    match ax with
    | ⟨0, _⟩ => show win0_3.index t (0 : Fin 2) * 128 + 1 * k.val = k.val; omega
    | ⟨1, _⟩ => show win0_3.index t (1 : Fin 2) * 128 + 1 * b.val = b.val; omega
  have r4 : iblk0 V c 4 t (ix2 (0 : Fin 1) b) = V c main_v22 (ix2 (0 : Fin 1) b) := by
    show V c main_v22 (((cfg0.win 4).blk t).view.emb (ix2 (0 : Fin 1) b)) = _
    refine congrArg _ (funext fun ax => Fin.ext ?_)
    match ax with
    | ⟨0, _⟩ => show win0_4.index t (0 : Fin 2) * 1 + 1 * 0 = 0; omega
    | ⟨1, _⟩ => show win0_4.index t (1 : Fin 2) * 128 + 1 * b.val = b.val; omega
  simp only [r0, r1, r2, r3, r4]

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v23).slice (win0_5.rect t)).set ↔ _
  rw [View.set_slice_whole, Rect.mem_set_unit]
  exact Iff.rfl

/-- The 25 row blocks tile the array: row `r` is in the block of point `r / 2000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hq : (i 0).val / 2000 < 25 := by omega
  obtain ⟨t, htv⟩ : ∃ t : Fin cfg0.N, t.val = (i 0).val / 2000 := ⟨⟨(i 0).val / 2000, Nat.lt_of_lt_of_eq hq N_0.symm⟩, rfl⟩
  obtain ⟨-, -, -, -, -, -, -, -, -, -, e50, e51⟩ := idx_facts t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- THE ARRAY the region leaves: the whole layer of the arrays it found. -/
theorem final (c : Dev nD) : (dat0 V c).arrAt 5 cfg0.N = G V c :=
  (dat0 V c).arrAt_eq_of_cover 5 (G V c) (fun t _ => flushed_eq V c t) cover

end Cert.KernelIdeal.Reg0

end
-- ==== Proof.Reg1.lean ====
/-
  Region 1 of the idealized kernel program: a graph layer over row blocks.

  The grid has 25 points; point `t` reads rows `2000·t … 2000·t + 1999` of the neighbourhood means and of the node
  features, the two whole weight matrices and the one bias row, and writes the same rows of the result.  Entry (p, q) of
  the block it writes is `max (Σₖ mean(p,k)·Wl(k,q) + Σₖ h(p,k)·Wr(k,q) + b(q), 0)` of its block's rows — the two matrix
  unit products into zero accumulators are plain sums at exact arithmetic, the roundings on the way in are the
  identity —, and the 25 row blocks tile the array: so the region leaves the whole layer, one function of the arrays it
  found at entry.
-/
import proofs.«141248_j5162550690506_1_alg».proof.Proof.Gen.KernelIdeal.Frame
import proofs.«141248_j5162550690506_1_alg».proof.Proof.Spec
import proofs.«141248_j5162550690506_1_alg».proof.Proof.LibDotEntries
import Idealize.ShloMosaic.Lib.Pipeline.Value
import Idealize.ShloMosaic.Lib.ValueIdx
import Idealize.ShloMosaic.Lib.ValueLayout

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx Cert.Lib.DotEntries

variable (V : (c : Dev nD) → (b : Ref sig .tc) → Buf (Elt Ideal) ((c : Thread nD τ).loc b))

theorem hz : (![0, 0] : Fin 2 → Nat) = fun _ => 0 := funext fun a => by fin_cases a <;> rfl

/-- The block product's dimension numbers are the plain ones: rows by the contraction, the contraction by columns. -/
theorem rec_eq : dot_S2000x128_S128x128_S2000x128_1_0_0_1_n_n = DotDims.plain 2000 128 128 := rfl

/-- Entry (p, q) of the value the body stores, from the blocks it loads: the layer's formula on the block's rows. -/
theorem pay_apply (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q) = Spec.combineAt x0 x1 x2 x3 (fun q => x4 (ix2 (0 : Fin 1) q)) p q := by
  unfold k1_pay1 Spec.combineAt Spec.mm
  simp only [maximumf_apply, addf_apply, broadcast_apply]
  have hA : ∀ (a : Vec Ideal S2000x128 .f32) (w : Vec Ideal S128x128 .f32),
      matmul dot_S2000x128_S128x128_S2000x128_1_0_0_1_n_n none (truncf .bf16 a bitsLt_bf16_f32) (truncf .bf16 w bitsLt_bf16_f32)
        (constant (F := Ideal) S2000x128 .f32 0x00000000#32) (ix2 p q) = ∑ k : Fin 128, a (ix2 p k) * w (ix2 k q) := by
    intro a w
    rw [rec_eq]
    exact matmul_plain_ix2 (truncf .bf16 a bitsLt_bf16_f32) (truncf .bf16 w bitsLt_bf16_f32) p q
  have hC : broadcastTo S2000x128 (shapeCast S1x128 x4 shapeCasts_S1x128_S1x128) broadcasts_S1x128_S2000x128 (ix2 p q)
      = x4 (ix2 (0 : Fin 1) q) := by
    rw [shapeCast_self]
    exact broadcastTo_1b_ab_apply x4 _ p q
  rw [hA, hA, hC, Ideal.ofBits_def, Ideal.ofBits_zero_f32]
  try rw [shapeCast_self]
  try rw [shapeCast_self]

/-- The layer as one function of the arrays the region finds at entry. -/
def G (c : Dev nD) : Vec Ideal S50000x128 .f32 :=
  Spec.combine (V c main_v35) (V c main_v23) (V c main_arg6) (V c main_arg7) (fun q => V c main_v36 (ix2 (0 : Fin 1) q))

/-- The printed index maps, decided over the grid: the row-blocked windows sit at block row `t`, the whole-array
    windows at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 25 := lt_of_lt_of_eq t.isLt N_1

/-- WHAT POINT `t` WRITES BACK is block `t` of the layer. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨a, b, rfl⟩ : ∃ (a : Fin 2000) (b : Fin 128), j = ix2 a b := ⟨j 0, j 1, eq_ix2 j⟩
  show k1_pay1 (iblk1 V c 0 t) (iblk1 V c 1 t) (iblk1 V c 2 t) (iblk1 V c 3 t) (iblk1 V c 4 t) (ix2 a b)
    = G V c (((cfg1.win 5).blk t).view.emb (ix2 a b))
  refine (pay_apply (iblk1 V c 0 t) (iblk1 V c 1 t) (iblk1 V c 2 t) (iblk1 V c 3 t) (iblk1 V c 4 t) a b).trans ?_
  obtain ⟨e00, e01, e10, e11, e20, e21, e30, e31, e40, e41, e50, e51⟩ := idx_facts t
  have ht := t_lt t
  have hb : t.val * 2000 + a.val < 50000 := by have := a.isLt; omega
  have e5 : ((cfg1.win 5).blk t).view.emb (ix2 a b) = ix2 (⟨t.val * 2000 + a.val, hb⟩ : Fin 50000) b := by
    funext ax; apply Fin.ext
    match ax with
    | ⟨0, _⟩ => show win1_5.index t (0 : Fin 2) * 2000 + 1 * a.val = t.val * 2000 + a.val; omega
    | ⟨1, _⟩ => show win1_5.index t (1 : Fin 2) * 128 + 1 * b.val = b.val; omega
  rw [e5]
  unfold G
  rw [Spec.combine_ix2]
  unfold Spec.combineAt Spec.mm
  have r0 : ∀ k : Fin 128, iblk1 V c 0 t (ix2 a k) = V c main_v35 (ix2 (⟨t.val * 2000 + a.val, hb⟩ : Fin 50000) k) := fun k => by
    show V c main_v35 (((cfg1.win 0).blk t).view.emb (ix2 a k)) = _
    refine congrArg _ (funext fun ax => Fin.ext ?_)
    match ax with
    | ⟨0, _⟩ => show win1_0.index t (0 : Fin 2) * 2000 + 1 * a.val = t.val * 2000 + a.val; omega
    | ⟨1, _⟩ => show win1_0.index t (1 : Fin 2) * 128 + 1 * k.val = k.val; omega
  have r1 : ∀ k : Fin 128, iblk1 V c 1 t (ix2 a k) = V c main_v23 (ix2 (⟨t.val * 2000 + a.val, hb⟩ : Fin 50000) k) := fun k => by
    show V c main_v23 (((cfg1.win 1).blk t).view.emb (ix2 a k)) = _
    refine congrArg _ (funext fun ax => Fin.ext ?_)
    match ax with
    | ⟨0, _⟩ => show win1_1.index t (0 : Fin 2) * 2000 + 1 * a.val = t.val * 2000 + a.val; omega
    | ⟨1, _⟩ => show win1_1.index t (1 : Fin 2) * 128 + 1 * k.val = k.val; omega
  have r2 : ∀ k : Fin 128, iblk1 V c 2 t (ix2 k b) = V c main_arg6 (ix2 k b) := fun k => by
    show V c main_arg6 (((cfg1.win 2).blk t).view.emb (ix2 k b)) = _
    refine congrArg _ (funext fun ax => Fin.ext ?_)
    match ax with
    | ⟨0, _⟩ => show win1_2.index t (0 : Fin 2) * 128 + 1 * k.val = k.val; omega
    | ⟨1, _⟩ => show win1_2.index t (1 : Fin 2) * 128 + 1 * b.val = b.val; omega
  have r3 : ∀ k : Fin 128, iblk1 V c 3 t (ix2 k b) = V c main_arg7 (ix2 k b) := fun k => by
    show V c main_arg7 (((cfg1.win 3).blk t).view.emb (ix2 k b)) = _
    refine congrArg _ (funext fun ax => Fin.ext ?_)
    match ax with
    | ⟨0, _⟩ => show win1_3.index t (0 : Fin 2) * 128 + 1 * k.val = k.val; omega
    | ⟨1, _⟩ => show win1_3.index t (1 : Fin 2) * 128 + 1 * b.val = b.val; omega
  have r4 : iblk1 V c 4 t (ix2 (0 : Fin 1) b) = V c main_v36 (ix2 (0 : Fin 1) b) := by
    show V c main_v36 (((cfg1.win 4).blk t).view.emb (ix2 (0 : Fin 1) b)) = _
    refine congrArg _ (funext fun ax => Fin.ext ?_)
    match ax with
    | ⟨0, _⟩ => show win1_4.index t (0 : Fin 2) * 1 + 1 * 0 = 0; omega
    | ⟨1, _⟩ => show win1_4.index t (1 : Fin 2) * 128 + 1 * b.val = b.val; omega
  simp only [r0, r1, r2, r3, r4]

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v37).slice (win1_5.rect t)).set ↔ _
  rw [View.set_slice_whole, Rect.mem_set_unit]
  exact Iff.rfl

/-- The 25 row blocks tile the array: row `r` is in the block of point `r / 2000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hq : (i 0).val / 2000 < 25 := by omega
  obtain ⟨t, htv⟩ : ∃ t : Fin cfg1.N, t.val = (i 0).val / 2000 := ⟨⟨(i 0).val / 2000, Nat.lt_of_lt_of_eq hq N_1.symm⟩, rfl⟩
  obtain ⟨-, -, -, -, -, -, -, -, -, -, e50, e51⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- THE ARRAY the region leaves: the whole layer of the arrays it found. -/
theorem final (c : Dev nD) : (dat1 V c).arrAt 5 cfg1.N = G V c :=
  (dat1 V c).arrAt_eq_of_cover 5 (G V c) (fun t _ => flushed_eq V c t) cover

end Cert.KernelIdeal.Reg1

end
-- ==== Proof.Reg2.lean ====
/-
  Region 2 of the idealized kernel program: the two affine heads and the latent sample, over row blocks.

  The grid has 25 points; point `t` reads rows `2000·t … 2000·t + 1999` of the last layer's features and of the noise,
  the two whole head matrices and their bias rows, and writes the same rows of three results: the mean head
  `h·Wmu + bmu`, the log-variance head `h·Wlv + blv`, and the sample `mean + noise · exp (½ · logvar)`.  The matrix unit
  products into zero accumulators are plain sums at exact arithmetic, the roundings on the way in the identity, and the
  25 row blocks tile each array: the region leaves each result whole, one function of the arrays it found at entry.
-/
import proofs.«141248_j5162550690506_1_alg».proof.Proof.Gen.KernelIdeal.Frame
import proofs.«141248_j5162550690506_1_alg».proof.Proof.Spec
import proofs.«141248_j5162550690506_1_alg».proof.Proof.LibDotEntries
import Idealize.ShloMosaic.Lib.Pipeline.Value
import Idealize.ShloMosaic.Lib.ValueIdx
import Idealize.ShloMosaic.Lib.ValueLayout

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.ValueIdx Cert.Lib.DotEntries

variable (V : (c : Dev nD) → (b : Ref sig .tc) → Buf (Elt Ideal) ((c : Thread nD τ).loc b))

theorem hz : (![0, 0] : Fin 2 → Nat) = fun _ => 0 := funext fun a => by fin_cases a <;> rfl

/-- The block product's dimension numbers are the plain ones: rows by the contraction, the contraction by columns. -/
theorem rec_eq : dot_S2000x128_S128x32_S2000x32_1_0_0_1_n_n = DotDims.plain 2000 128 32 := rfl

/-- The block product at an entry: the features' row against the head matrix's column. -/
theorem prod_apply (a : Vec Ideal S2000x128 .f32) (w : Vec Ideal S128x32 .f32) (p : Fin 2000) (q : Fin 32) :
    matmul dot_S2000x128_S128x32_S2000x32_1_0_0_1_n_n none (k2_pay1 (F := Ideal) a) (truncf .bf16 w bitsLt_bf16_f32)
      (constant (F := Ideal) S2000x32 .f32 0x00000000#32) (ix2 p q) = ∑ k : Fin 128, a (ix2 p k) * w (ix2 k q) := by
  rw [rec_eq]
  refine (matmul_plain_ix2 (k2_pay1 (F := Ideal) a) (truncf .bf16 w bitsLt_bf16_f32) p q).trans ?_
  refine Finset.sum_congr rfl fun k _ => ?_
  unfold k2_pay1
  rw [shapeCast_self]
  rfl

/-- A head's bias row broadcast over the block, at an entry. -/
theorem bias_apply (x : Vec Ideal S1x32 .f32) (p : Fin 2000) (q : Fin 32) :
    broadcastTo S2000x32 (shapeCast S1x32 x shapeCasts_S1x32_S1x32) broadcasts_S1x32_S2000x32 (ix2 p q)
      = x (ix2 (0 : Fin 1) q) := by
  rw [shapeCast_self]
  exact broadcastTo_1b_ab_apply x _ p q

/-- Entry (p, q) of the mean head's block. -/
theorem pay2_apply (x0 : Vec Ideal S2000x128 .f32) (x1 : Vec Ideal S128x32 .f32) (x2 : Vec Ideal S1x32 .f32)
    (p : Fin 2000) (q : Fin 32) :
    k2_pay2 (F := Ideal) x0 x1 x2 (ix2 p q) = Spec.affineAt x0 x1 (fun q => x2 (ix2 (0 : Fin 1) q)) p q := by
  unfold k2_pay2 Spec.affineAt Spec.mm
  simp only [addf_apply]
  rw [prod_apply, bias_apply]

/-- Entry (p, q) of the log-variance head's block. -/
theorem pay3_apply (x0 : Vec Ideal S2000x128 .f32) (x3 : Vec Ideal S128x32 .f32) (x4 : Vec Ideal S1x32 .f32)
    (p : Fin 2000) (q : Fin 32) :
    k2_pay3 (F := Ideal) x0 x3 x4 (ix2 p q) = Spec.affineAt x0 x3 (fun q => x4 (ix2 (0 : Fin 1) q)) p q := by
  unfold k2_pay3 Spec.affineAt Spec.mm
  simp only [addf_apply]
  rw [prod_apply, bias_apply]

/-- Entry (p, q) of the sample's block. -/
theorem pay4_apply (x0 : Vec Ideal S2000x128 .f32) (x1 x3 : Vec Ideal S128x32 .f32) (x2 x4 : Vec Ideal S1x32 .f32)
    (x5 : Vec Ideal S2000x32 .f32) (p : Fin 2000) (q : Fin 32) :
    k2_pay4 (F := Ideal) x0 x1 x3 x2 x4 x5 (ix2 p q)
      = Spec.affineAt x0 x1 (fun q => x2 (ix2 (0 : Fin 1) q)) p q
        + x5 (ix2 p q) * Ideal.exp (Spec.half * Spec.affineAt x0 x3 (fun q => x4 (ix2 (0 : Fin 1) q)) p q) := by
  rw [← pay2_apply, ← pay3_apply]
  rfl

/-- The three results as functions of the arrays the region finds at entry. -/
def Gmu (c : Dev nD) : Vec Ideal S50000x32 .f32 :=
  Spec.affine (V c main_v37) (V c main_arg9) (fun q => V c main_v38 (ix2 (0 : Fin 1) q))
def Glv (c : Dev nD) : Vec Ideal S50000x32 .f32 :=
  Spec.affine (V c main_v37) (V c main_arg11) (fun q => V c main_v39 (ix2 (0 : Fin 1) q))
def Gz (c : Dev nD) : Vec Ideal S50000x32 .f32 :=
  Spec.sample (S := S50000x32) (Gmu V c) (Glv V c) (V c main_arg2)

/-- The printed index maps, decided over the grid: the row-blocked windows sit at block row `t`, the whole-array
    windows at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

theorem t_lt (t : Fin cfg2.N) : t.val < 25 := lt_of_lt_of_eq t.isLt N_2

/-! ## Each window's block, read where it sits in its array -/

theorem blk0 (c : Dev nD) (t : Fin cfg2.N) (a : Fin 2000) (k : Fin 128) (hb : t.val * 2000 + a.val < 50000) :
    iblk2 V c 0 t (ix2 a k) = V c main_v37 (ix2 (⟨t.val * 2000 + a.val, hb⟩ : Fin 50000) k) := by
  obtain ⟨e00, e01, -⟩ := idx_facts t
  show V c main_v37 (((cfg2.win 0).blk t).view.emb (ix2 a k)) = _
  refine congrArg _ (funext fun ax => Fin.ext ?_)
  match ax with
  | ⟨0, _⟩ => show win2_0.index t (0 : Fin 2) * 2000 + 1 * a.val = t.val * 2000 + a.val; omega
  | ⟨1, _⟩ => show win2_0.index t (1 : Fin 2) * 128 + 1 * k.val = k.val; omega

theorem blk1 (c : Dev nD) (t : Fin cfg2.N) (k : Fin 128) (b : Fin 32) : iblk2 V c 1 t (ix2 k b) = V c main_arg9 (ix2 k b) := by
  obtain ⟨-, -, e10, e11, -⟩ := idx_facts t
  show V c main_arg9 (((cfg2.win 1).blk t).view.emb (ix2 k b)) = _
  refine congrArg _ (funext fun ax => Fin.ext ?_)
  match ax with
  | ⟨0, _⟩ => show win2_1.index t (0 : Fin 2) * 128 + 1 * k.val = k.val; omega
  | ⟨1, _⟩ => show win2_1.index t (1 : Fin 2) * 32 + 1 * b.val = b.val; omega

theorem blk2 (c : Dev nD) (t : Fin cfg2.N) (b : Fin 32) : iblk2 V c 2 t (ix2 (0 : Fin 1) b) = V c main_v38 (ix2 (0 : Fin 1) b) := by
  obtain ⟨-, -, -, -, e20, e21, -⟩ := idx_facts t
  show V c main_v38 (((cfg2.win 2).blk t).view.emb (ix2 (0 : Fin 1) b)) = _
  refine congrArg _ (funext fun ax => Fin.ext ?_)
  match ax with
  | ⟨0, _⟩ => show win2_2.index t (0 : Fin 2) * 1 + 1 * 0 = 0; omega
  | ⟨1, _⟩ => show win2_2.index t (1 : Fin 2) * 32 + 1 * b.val = b.val; omega

theorem blk3 (c : Dev nD) (t : Fin cfg2.N) (k : Fin 128) (b : Fin 32) : iblk2 V c 3 t (ix2 k b) = V c main_arg11 (ix2 k b) := by
  obtain ⟨-, -, -, -, -, -, e30, e31, -⟩ := idx_facts t
  show V c main_arg11 (((cfg2.win 3).blk t).view.emb (ix2 k b)) = _
  refine congrArg _ (funext fun ax => Fin.ext ?_)
  match ax with
  | ⟨0, _⟩ => show win2_3.index t (0 : Fin 2) * 128 + 1 * k.val = k.val; omega
  | ⟨1, _⟩ => show win2_3.index t (1 : Fin 2) * 32 + 1 * b.val = b.val; omega

theorem blk4 (c : Dev nD) (t : Fin cfg2.N) (b : Fin 32) : iblk2 V c 4 t (ix2 (0 : Fin 1) b) = V c main_v39 (ix2 (0 : Fin 1) b) := by
  obtain ⟨-, -, -, -, -, -, -, -, e40, e41, -⟩ := idx_facts t
  show V c main_v39 (((cfg2.win 4).blk t).view.emb (ix2 (0 : Fin 1) b)) = _
  refine congrArg _ (funext fun ax => Fin.ext ?_)
  match ax with
  | ⟨0, _⟩ => show win2_4.index t (0 : Fin 2) * 1 + 1 * 0 = 0; omega
  | ⟨1, _⟩ => show win2_4.index t (1 : Fin 2) * 32 + 1 * b.val = b.val; omega

theorem blk5 (c : Dev nD) (t : Fin cfg2.N) (a : Fin 2000) (b : Fin 32) (hb : t.val * 2000 + a.val < 50000) :
    iblk2 V c 5 t (ix2 a b) = V c main_arg2 (ix2 (⟨t.val * 2000 + a.val, hb⟩ : Fin 50000) b) := by
  obtain ⟨-, -, -, -, -, -, -, -, -, -, e50, e51, -⟩ := idx_facts t
  show V c main_arg2 (((cfg2.win 5).blk t).view.emb (ix2 a b)) = _
  refine congrArg _ (funext fun ax => Fin.ext ?_)
  match ax with
  | ⟨0, _⟩ => show win2_5.index t (0 : Fin 2) * 2000 + 1 * a.val = t.val * 2000 + a.val; omega
  | ⟨1, _⟩ => show win2_5.index t (1 : Fin 2) * 32 + 1 * b.val = b.val; omega

theorem emb6 (t : Fin cfg2.N) (a : Fin 2000) (b : Fin 32) (hb : t.val * 2000 + a.val < 50000) :
    ((cfg2.win 6).blk t).view.emb (ix2 a b) = ix2 (⟨t.val * 2000 + a.val, hb⟩ : Fin 50000) b := by
  obtain ⟨-, -, -, -, -, -, -, -, -, -, -, -, e60, e61, e70, e71, e80, e81⟩ := idx_facts t
  funext ax; apply Fin.ext
  match ax with
  | ⟨0, _⟩ => show win2_6.index t (0 : Fin 2) * 2000 + 1 * a.val = t.val * 2000 + a.val; omega
  | ⟨1, _⟩ => show win2_6.index t (1 : Fin 2) * 32 + 1 * b.val = b.val; omega

theorem emb7 (t : Fin cfg2.N) (a : Fin 2000) (b : Fin 32) (hb : t.val * 2000 + a.val < 50000) :
    ((cfg2.win 7).blk t).view.emb (ix2 a b) = ix2 (⟨t.val * 2000 + a.val, hb⟩ : Fin 50000) b := by
  obtain ⟨-, -, -, -, -, -, -, -, -, -, -, -, e60, e61, e70, e71, e80, e81⟩ := idx_facts t
  funext ax; apply Fin.ext
  match ax with
  | ⟨0, _⟩ => show win2_7.index t (0 : Fin 2) * 2000 + 1 * a.val = t.val * 2000 + a.val; omega
  | ⟨1, _⟩ => show win2_7.index t (1 : Fin 2) * 32 + 1 * b.val = b.val; omega

theorem emb8 (t : Fin cfg2.N) (a : Fin 2000) (b : Fin 32) (hb : t.val * 2000 + a.val < 50000) :
    ((cfg2.win 8).blk t).view.emb (ix2 a b) = ix2 (⟨t.val * 2000 + a.val, hb⟩ : Fin 50000) b := by
  obtain ⟨-, -, -, -, -, -, -, -, -, -, -, -, e60, e61, e70, e71, e80, e81⟩ := idx_facts t
  funext ax; apply Fin.ext
  match ax with
  | ⟨0, _⟩ => show win2_8.index t (0 : Fin 2) * 2000 + 1 * a.val = t.val * 2000 + a.val; omega
  | ⟨1, _⟩ => show win2_8.index t (1 : Fin 2) * 32 + 1 * b.val = b.val; omega

/-! ## What point `t` writes back -/

theorem flushed6_eq (c : Dev nD) (t : Fin cfg2.N) :
    (dat2 V c).flushed 6 t = ((cfg2.win 6).blk t).view.read (Elt Ideal) (Gmu V c) := by
  show (cfg2.win 6).cut (grid2.coords t) ((dat2 V c).after 6 t) = _
  rw [after2_6]
  unfold out2_6
  rw [View.canon_unit_zero hz]
  simp only [View.ld_unit_zero (S := S2000x128) hz, View.ld_unit_zero (S := S128x32) hz, View.ld_unit_zero (S := S1x32) hz]
  funext j
  obtain ⟨a, b, rfl⟩ : ∃ (a : Fin 2000) (b : Fin 32), j = ix2 a b := ⟨j 0, j 1, eq_ix2 j⟩
  show k2_pay2 (iblk2 V c 0 t) (iblk2 V c 1 t) (iblk2 V c 2 t) (ix2 a b) = Gmu V c (((cfg2.win 6).blk t).view.emb (ix2 a b))
  refine (pay2_apply (iblk2 V c 0 t) (iblk2 V c 1 t) (iblk2 V c 2 t) a b).trans ?_
  have ht := t_lt t
  have hb : t.val * 2000 + a.val < 50000 := by have := a.isLt; omega
  rw [emb6 t a b hb]
  unfold Gmu
  rw [Spec.affine_ix2]
  unfold Spec.affineAt Spec.mm
  simp only [blk0 V c t a _ hb, blk1 V c t, blk2 V c t]

theorem flushed7_eq (c : Dev nD) (t : Fin cfg2.N) :
    (dat2 V c).flushed 7 t = ((cfg2.win 7).blk t).view.read (Elt Ideal) (Glv V c) := by
  show (cfg2.win 7).cut (grid2.coords t) ((dat2 V c).after 7 t) = _
  rw [after2_7]
  unfold out2_7
  rw [View.canon_unit_zero hz]
  simp only [View.ld_unit_zero (S := S2000x128) hz, View.ld_unit_zero (S := S128x32) hz, View.ld_unit_zero (S := S1x32) hz]
  funext j
  obtain ⟨a, b, rfl⟩ : ∃ (a : Fin 2000) (b : Fin 32), j = ix2 a b := ⟨j 0, j 1, eq_ix2 j⟩
  show k2_pay3 (iblk2 V c 0 t) (iblk2 V c 3 t) (iblk2 V c 4 t) (ix2 a b) = Glv V c (((cfg2.win 7).blk t).view.emb (ix2 a b))
  refine (pay3_apply (iblk2 V c 0 t) (iblk2 V c 3 t) (iblk2 V c 4 t) a b).trans ?_
  have ht := t_lt t
  have hb : t.val * 2000 + a.val < 50000 := by have := a.isLt; omega
  rw [emb7 t a b hb]
  unfold Glv
  rw [Spec.affine_ix2]
  unfold Spec.affineAt Spec.mm
  simp only [blk0 V c t a _ hb, blk3 V c t, blk4 V c t]

theorem flushed8_eq (c : Dev nD) (t : Fin cfg2.N) :
    (dat2 V c).flushed 8 t = ((cfg2.win 8).blk t).view.read (Elt Ideal) (Gz V c) := by
  show (cfg2.win 8).cut (grid2.coords t) ((dat2 V c).after 8 t) = _
  rw [after2_8]
  unfold out2_8
  rw [View.canon_unit_zero hz]
  simp only [View.ld_unit_zero (S := S2000x128) hz, View.ld_unit_zero (S := S128x32) hz, View.ld_unit_zero (S := S1x32) hz,
    View.ld_unit_zero (S := S2000x32) hz]
  funext j
  obtain ⟨a, b, rfl⟩ : ∃ (a : Fin 2000) (b : Fin 32), j = ix2 a b := ⟨j 0, j 1, eq_ix2 j⟩
  show k2_pay4 (iblk2 V c 0 t) (iblk2 V c 1 t) (iblk2 V c 3 t) (iblk2 V c 2 t) (iblk2 V c 4 t) (iblk2 V c 5 t) (ix2 a b)
    = Gz V c (((cfg2.win 8).blk t).view.emb (ix2 a b))
  refine (pay4_apply (iblk2 V c 0 t) (iblk2 V c 1 t) (iblk2 V c 3 t) (iblk2 V c 2 t) (iblk2 V c 4 t) (iblk2 V c 5 t) a b).trans ?_
  have ht := t_lt t
  have hb : t.val * 2000 + a.val < 50000 := by have := a.isLt; omega
  rw [emb8 t a b hb]
  unfold Gz Spec.sample Gmu Glv
  rw [Spec.affine_ix2, Spec.affine_ix2]
  unfold Spec.affineAt Spec.mm
  simp only [blk0 V c t a _ hb, blk1 V c t, blk2 V c t, blk3 V c t, blk4 V c t, blk5 V c t a b hb]

/-! ## The row blocks tile each result -/

theorem mem_blk6 (t : Fin cfg2.N) (i : S50000x32.Idx) :
    i ∈ ((cfg2.win 6).blk t).view.set ↔ ∀ a : Fin 2, win2_6.index t a * S2000x32.size a ≤ (i a).val
      ∧ (i a).val < win2_6.index t a * S2000x32.size a + S2000x32.size a := by
  show i ∈ ((View.whole main_v40_0).slice (win2_6.rect t)).set ↔ _
  rw [View.set_slice_whole, Rect.mem_set_unit]
  exact Iff.rfl

theorem cover6 (i : S50000x32.Idx) :
    ∃ t : Fin cfg2.N, (cfg2.win 6).flush t = true ∧ i ∈ ((cfg2.win 6).blk t).view.set := by
  have hi0 : (i 0).val < 50000 := (i 0).isLt
  have hi1 : (i 1).val < 32 := (i 1).isLt
  have hq : (i 0).val / 2000 < 25 := by omega
  obtain ⟨t, htv⟩ : ∃ t : Fin cfg2.N, t.val = (i 0).val / 2000 := ⟨⟨(i 0).val / 2000, Nat.lt_of_lt_of_eq hq N_2.symm⟩, rfl⟩
  obtain ⟨-, -, -, -, -, -, -, -, -, -, -, -, e60, e61, e70, e71, e80, e81⟩ := idx_facts t
  refine ⟨t, flush2_6 t, ?_⟩
  rw [mem_blk6]
  intro a
  match a with
  | ⟨0, _⟩ =>
    show win2_6.index t (0 : Fin 2) * 2000 ≤ (i 0).val ∧ (i 0).val < win2_6.index t (0 : Fin 2) * 2000 + 2000
    omega
  | ⟨1, _⟩ =>
    show win2_6.index t (1 : Fin 2) * 32 ≤ (i 1).val ∧ (i 1).val < win2_6.index t (1 : Fin 2) * 32 + 32
    omega

/-- THE ARRAY the region leaves in result window 6. -/
theorem final6 (c : Dev nD) : (dat2 V c).arrAt 6 cfg2.N = Gmu V c :=
  (dat2 V c).arrAt_eq_of_cover 6 (Gmu V c) (fun t _ => flushed6_eq V c t) cover6

theorem mem_blk7 (t : Fin cfg2.N) (i : S50000x32.Idx) :
    i ∈ ((cfg2.win 7).blk t).view.set ↔ ∀ a : Fin 2, win2_7.index t a * S2000x32.size a ≤ (i a).val
      ∧ (i a).val < win2_7.index t a * S2000x32.size a + S2000x32.size a := by
  show i ∈ ((View.whole main_v40_1).slice (win2_7.rect t)).set ↔ _
  rw [View.set_slice_whole, Rect.mem_set_unit]
  exact Iff.rfl

theorem cover7 (i : S50000x32.Idx) :
    ∃ t : Fin cfg2.N, (cfg2.win 7).flush t = true ∧ i ∈ ((cfg2.win 7).blk t).view.set := by
  have hi0 : (i 0).val < 50000 := (i 0).isLt
  have hi1 : (i 1).val < 32 := (i 1).isLt
  have hq : (i 0).val / 2000 < 25 := by omega
  obtain ⟨t, htv⟩ : ∃ t : Fin cfg2.N, t.val = (i 0).val / 2000 := ⟨⟨(i 0).val / 2000, Nat.lt_of_lt_of_eq hq N_2.symm⟩, rfl⟩
  obtain ⟨-, -, -, -, -, -, -, -, -, -, -, -, e60, e61, e70, e71, e80, e81⟩ := idx_facts t
  refine ⟨t, flush2_7 t, ?_⟩
  rw [mem_blk7]
  intro a
  match a with
  | ⟨0, _⟩ =>
    show win2_7.index t (0 : Fin 2) * 2000 ≤ (i 0).val ∧ (i 0).val < win2_7.index t (0 : Fin 2) * 2000 + 2000
    omega
  | ⟨1, _⟩ =>
    show win2_7.index t (1 : Fin 2) * 32 ≤ (i 1).val ∧ (i 1).val < win2_7.index t (1 : Fin 2) * 32 + 32
    omega

/-- THE ARRAY the region leaves in result window 7. -/
theorem final7 (c : Dev nD) : (dat2 V c).arrAt 7 cfg2.N = Glv V c :=
  (dat2 V c).arrAt_eq_of_cover 7 (Glv V c) (fun t _ => flushed7_eq V c t) cover7

theorem mem_blk8 (t : Fin cfg2.N) (i : S50000x32.Idx) :
    i ∈ ((cfg2.win 8).blk t).view.set ↔ ∀ a : Fin 2, win2_8.index t a * S2000x32.size a ≤ (i a).val
      ∧ (i a).val < win2_8.index t a * S2000x32.size a + S2000x32.size a := by
  show i ∈ ((View.whole main_v40_2).slice (win2_8.rect t)).set ↔ _
  rw [View.set_slice_whole, Rect.mem_set_unit]
  exact Iff.rfl

theorem cover8 (i : S50000x32.Idx) :
    ∃ t : Fin cfg2.N, (cfg2.win 8).flush t = true ∧ i ∈ ((cfg2.win 8).blk t).view.set := by
  have hi0 : (i 0).val < 50000 := (i 0).isLt
  have hi1 : (i 1).val < 32 := (i 1).isLt
  have hq : (i 0).val / 2000 < 25 := by omega
  obtain ⟨t, htv⟩ : ∃ t : Fin cfg2.N, t.val = (i 0).val / 2000 := ⟨⟨(i 0).val / 2000, Nat.lt_of_lt_of_eq hq N_2.symm⟩, rfl⟩
  obtain ⟨-, -, -, -, -, -, -, -, -, -, -, -, e60, e61, e70, e71, e80, e81⟩ := idx_facts t
  refine ⟨t, flush2_8 t, ?_⟩
  rw [mem_blk8]
  intro a
  match a with
  | ⟨0, _⟩ =>
    show win2_8.index t (0 : Fin 2) * 2000 ≤ (i 0).val ∧ (i 0).val < win2_8.index t (0 : Fin 2) * 2000 + 2000
    omega
  | ⟨1, _⟩ =>
    show win2_8.index t (1 : Fin 2) * 32 ≤ (i 1).val ∧ (i 1).val < win2_8.index t (1 : Fin 2) * 32 + 32
    omega

/-- THE ARRAY the region leaves in result window 8. -/
theorem final8 (c : Dev nD) : (dat2 V c).arrAt 8 cfg2.N = Gz V c :=
  (dat2 V c).arrAt_eq_of_cover 8 (Gz V c) (fun t _ => flushed8_eq V c t) cover8

end Cert.KernelIdeal.Reg2

end
-- ==== Proof.Reg3.lean ====
/-
  Region 3 of the idealized kernel program: the edge scores, over blocks of edges.

  The two operands hold, feature by edge, the latent rows of each edge's two endpoints.  The grid has 125 points; point
  `t` reads the 32 features of edges `12800·t … 12800·t + 12799` from both operands, multiplies them entry by entry, sums
  over the 32 features and applies the logistic function, and writes those edges' scores.  The 125 blocks tile the edge
  axis: the region leaves, at edge `e`, the logistic function of the inner product of the two operands' columns `e`.
-/
import proofs.«141248_j5162550690506_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The score the body stores for edge `e` of its block: the logistic function of the sum over the 32 features of the
    products of the two loaded blocks' entries. -/
theorem pay_apply (x0 x1 : Vec Ideal S32x12800 .f32) (e : Fin 12800) :
    k3_pay1 (F := Ideal) x0 x1 (ix2 (0 : Fin 1) e) = Ideal.logistic (∑ c : Fin 32, x0 (ix2 c e) * x1 (ix2 c e)) := by
  unfold k3_pay1
  rw [shapeCast_self, shapeCast_self]
  show Ideal.logistic (shapeCast S1x12800 (multiReduction (F := Ideal) .add [0] S12800 (mulf x0 x1) 0x00000000#32 reduces_S32x12800_S12800 (.inl rfl) rfl)
    shapeCasts_S12800_S1x12800 (ix2 (0 : Fin 1) e)) = _
  refine congrArg Ideal.logistic ?_
  refine (shapeCast_a_1a_apply _ shapeCasts_S12800_S1x12800 (0 : Fin 1) e).trans ?_
  refine (Ideal.multiReduction_add_single (mulf x0 x1) 0x00000000#32 reduces_S32x12800_S12800 (.inl rfl) rfl (ix1 e)).trans ?_
  show (∑ c : Fin 32, _) = _
  refine Finset.sum_congr rfl fun c _ => ?_
  have hl : reduces_S32x12800_S12800.lift (ix1 e) c = ix2 c e := funext fun ax => Fin.ext (by
    match ax with
    | ⟨0, _⟩ => rfl
    | ⟨1, _⟩ => rfl)
  rw [hl]
  rfl

/-- Every edge's score from the two operands, feature by edge: the logistic function of the inner product of the
    two operands' columns. -/
def score (zs zd : Vec Ideal S32x1600000 .f32) : Vec Ideal S1x1600000 .f32 :=
  fun i => Ideal.logistic (∑ f : Fin 32, zs (ix2 f (i 1)) * zd (ix2 f (i 1)))

theorem score_ix2 (zs zd : Vec Ideal S32x1600000 .f32) (u : Fin 1) (e : Fin 1600000) :
    score zs zd (ix2 u e) = Ideal.logistic (∑ f : Fin 32, zs (ix2 f e) * zd (ix2 f e)) := rfl

/-- The scores as one function of the two operands the region finds at entry. -/
def G (c : Dev nD) : Vec Ideal S1x1600000 .f32 := score (V c main_v48) (V c main_v55)

/-- The printed index maps, decided over the grid: every window sits at block column `t`. -/
theorem idx_facts : ∀ t : Fin cfg3.N,
    win3_0.index t (0 : Fin 2) = 0 ∧ win3_0.index t (1 : Fin 2) = t.val
    ∧ win3_1.index t (0 : Fin 2) = 0 ∧ win3_1.index t (1 : Fin 2) = t.val
    ∧ win3_2.index t (0 : Fin 2) = 0 ∧ win3_2.index t (1 : Fin 2) = t.val :=
  (by decide +kernel : ∀ t : Fin grid3.N, _)

theorem N_3' : grid3.N = 125 := by decide

theorem t_lt (t : Fin cfg3.N) : t.val < 125 := lt_of_lt_of_eq t.isLt N_3'

theorem blk0 (c : Dev nD) (t : Fin cfg3.N) (f : Fin 32) (e : Fin 12800) (hb : t.val * 12800 + e.val < 1600000) :
    iblk3 V c 0 t (ix2 f e) = V c main_v48 (ix2 f (⟨t.val * 12800 + e.val, hb⟩ : Fin 1600000)) := by
  obtain ⟨e00, e01, -⟩ := idx_facts t
  show V c main_v48 (((cfg3.win 0).blk t).view.emb (ix2 f e)) = _
  refine congrArg _ (funext fun ax => Fin.ext ?_)
  match ax with
  | ⟨0, _⟩ => show win3_0.index t (0 : Fin 2) * 32 + 1 * f.val = f.val; omega
  | ⟨1, _⟩ => show win3_0.index t (1 : Fin 2) * 12800 + 1 * e.val = t.val * 12800 + e.val; omega

theorem blk1 (c : Dev nD) (t : Fin cfg3.N) (f : Fin 32) (e : Fin 12800) (hb : t.val * 12800 + e.val < 1600000) :
    iblk3 V c 1 t (ix2 f e) = V c main_v55 (ix2 f (⟨t.val * 12800 + e.val, hb⟩ : Fin 1600000)) := by
  obtain ⟨-, -, e10, e11, -⟩ := idx_facts t
  show V c main_v55 (((cfg3.win 1).blk t).view.emb (ix2 f e)) = _
  refine congrArg _ (funext fun ax => Fin.ext ?_)
  match ax with
  | ⟨0, _⟩ => show win3_1.index t (0 : Fin 2) * 32 + 1 * f.val = f.val; omega
  | ⟨1, _⟩ => show win3_1.index t (1 : Fin 2) * 12800 + 1 * e.val = t.val * 12800 + e.val; omega

theorem emb2 (t : Fin cfg3.N) (e : Fin 12800) (hb : t.val * 12800 + e.val < 1600000) :
    ((cfg3.win 2).blk t).view.emb (ix2 (0 : Fin 1) e) = ix2 (0 : Fin 1) (⟨t.val * 12800 + e.val, hb⟩ : Fin 1600000) := by
  obtain ⟨-, -, -, -, e20, e21⟩ := idx_facts t
  funext ax; apply Fin.ext
  match ax with
  | ⟨0, _⟩ => show win3_2.index t (0 : Fin 2) * 1 + 1 * 0 = 0; omega
  | ⟨1, _⟩ => show win3_2.index t (1 : Fin 2) * 12800 + 1 * e.val = t.val * 12800 + e.val; omega

/-- WHAT POINT `t` WRITES BACK is block `t` of the scores. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz]
  simp only [View.ld_unit_zero (S := S32x12800) hz]
  funext j
  obtain ⟨u, e, rfl⟩ : ∃ (u : Fin 1) (e : Fin 12800), j = ix2 u e := ⟨j 0, j 1, eq_ix2 j⟩
  obtain rfl : u = 0 := Subsingleton.elim _ _
  show k3_pay1 (iblk3 V c 0 t) (iblk3 V c 1 t) (ix2 (0 : Fin 1) e) = G V c (((cfg3.win 2).blk t).view.emb (ix2 (0 : Fin 1) e))
  refine (pay_apply (iblk3 V c 0 t) (iblk3 V c 1 t) e).trans ?_
  have ht := t_lt t
  have hb : t.val * 12800 + e.val < 1600000 := by have := e.isLt; omega
  rw [emb2 t e hb]
  unfold G
  rw [score_ix2]
  simp only [blk0 V c t _ e hb, blk1 V c t _ e hb]

theorem mem_blk (t : Fin cfg3.N) (i : S1x1600000.Idx) :
    i ∈ ((cfg3.win 2).blk t).view.set ↔ ∀ a : Fin 2, win3_2.index t a * S1x12800.size a ≤ (i a).val
      ∧ (i a).val < win3_2.index t a * S1x12800.size a + S1x12800.size a := by
  show i ∈ ((View.whole main_v56).slice (win3_2.rect t)).set ↔ _
  rw [View.set_slice_whole, Rect.mem_set_unit]
  exact Iff.rfl

/-- The 125 blocks tile the edge axis: edge `e` is in the block of point `e / 12800`. -/
theorem cover (i : S1x1600000.Idx) :
    ∃ t : Fin cfg3.N, (cfg3.win 2).flush t = true ∧ i ∈ ((cfg3.win 2).blk t).view.set := by
  have hi0 : (i 0).val < 1 := (i 0).isLt
  have hi1 : (i 1).val < 1600000 := (i 1).isLt
  have hq : (i 1).val / 12800 < 125 := by omega
  obtain ⟨t, htv⟩ : ∃ t : Fin cfg3.N, t.val = (i 1).val / 12800 := ⟨⟨(i 1).val / 12800, Nat.lt_of_lt_of_eq hq N_3'.symm⟩, rfl⟩
  obtain ⟨-, -, -, -, e20, e21⟩ := idx_facts t
  refine ⟨t, flush3_2 t, ?_⟩
  rw [mem_blk]
  intro a
  match a with
  | ⟨0, _⟩ =>
    show win3_2.index t (0 : Fin 2) * 1 ≤ (i 0).val ∧ (i 0).val < win3_2.index t (0 : Fin 2) * 1 + 1
    omega
  | ⟨1, _⟩ =>
    show win3_2.index t (1 : Fin 2) * 12800 ≤ (i 1).val ∧ (i 1).val < win3_2.index t (1 : Fin 2) * 12800 + 12800
    omega

/-- THE ARRAY the region leaves: every edge's score. -/
theorem final (c : Dev nD) : (dat3 V c).arrAt 2 cfg3.N = G V c :=
  (dat3 V c).arrAt_eq_of_cover 2 (G V c) (fun t _ => flushed_eq V c t) cover

end Cert.KernelIdeal.Reg3

end
-- ==== Proof.LibColGather.lean ====
/-
  A gather of COLUMNS through one column of integer start indices `idx : [E, 1]`, read at an index.

  For `x : [D, N]` (features by nodes) the gathered array `x[:, idx] : [D, E]` has at (k, e) the entry (k, n) of `x`,
  where `n` is edge `e`'s start index read as a signed integer and clamped into `[0, N − 1]`: the feature axis is
  carried whole, the node axis is collapsed and indexed.
-/
import Idealize.ShloMosaic.Lib.ValueIdx
import Idealize.ShloMosaic.PureOps.Ideal
import proofs.«141248_j5162550690506_1_alg».proof.Proof.LibEdgeIdx

noncomputable section

namespace Cert.LibColGather

open Idealize.ShloMosaic Idealize.ShloMosaic.ValueIdx Cert.LibEdgeIdx

variable {α : Type}

/-- The dimension numbers of `x[:, idx]` for `x : [D, N]`, `idx : [E, 1]`: the feature axis carried whole, the node
    axis collapsed and indexed. -/
abbrev colGatherDims (N E D : Nat) (wf : GatherDims.WF ⟨2, ![D, N]⟩ ⟨2, ![E, 1]⟩ ⟨2, ![D, E]⟩ [0] [1] [] [1] [] 1 ![D, 1]) :
    GatherDims ⟨2, ![D, N]⟩ ⟨2, ![E, 1]⟩ ⟨2, ![D, E]⟩ where
  offsetDims := [0]
  collapsedSliceDims := [1]
  operandBatchingDims := []
  startIndicesBatchingDims := []
  startIndexMap := [1]
  indexVectorDim := 1
  sliceSizes := ![D, 1]
  wf := wf

/-- Feature `k`, edge `e` of the gathered array is feature `k` of the column the clamped start index names. -/
theorem gather_cols_apply {N E D w : Nat} (hN : 0 < N)
    (wf : GatherDims.WF ⟨2, ![D, N]⟩ ⟨2, ![E, 1]⟩ ⟨2, ![D, E]⟩ [0] [1] [] [1] [] 1 ![D, 1])
    (x : (⟨2, ![D, N]⟩ : Shape).Idx → α) (idx : IVec ⟨2, ![E, 1]⟩ w) (k : Fin D) (e : Fin E) :
    Host.gather (colGatherDims N E D wf) x idx (ix2 k e) = x (ix2 k (clampIdx N hN (idx (edgeAt e)))) := by
  unfold Host.gather
  congr 1
  funext a
  match a with
  | ⟨0, _⟩ =>
    refine Fin.ext ?_
    show (colGatherDims N E D wf).start (ix2 k e) idx 0 + (colGatherDims N E D wf).batchCoord (ix2 k e) 0
      + (colGatherDims N E D wf).offCoord (ix2 k e) 0 = k.val
    rw [GatherDims.batchCoord_eq_zero _ _ _ List.not_mem_nil]
    unfold GatherDims.start
    rw [dif_neg (show (0 : Fin 2) ∉ ([1] : List (Fin 2)) by decide)]
    unfold GatherDims.offCoord
    rw [dif_pos ((GatherDims.mem_sKept (colGatherDims N E D wf) 0).mpr ⟨(show (0 : Fin 2) ∉ ([1] : List (Fin 2)) by decide), List.not_mem_nil⟩)]
    have hs : (colGatherDims N E D wf).sKept = [0] := by
      first
      | rfl
      | decide
      | (simp [GatherDims.sKept, Shape.kept]; done)
    have hi : List.idxOf (0 : Fin 2) (colGatherDims N E D wf).sKept = 0 := by rw [hs]; simp
    simp only [hi, List.getElem_cons_zero, Nat.zero_add]
    rfl
  | ⟨1, _⟩ =>
    refine Fin.ext ?_
    show (colGatherDims N E D wf).start (ix2 k e) idx 1 + (colGatherDims N E D wf).batchCoord (ix2 k e) 1
      + (colGatherDims N E D wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGatherDims N E D wf).startIndexMap from List.mem_singleton.mpr rfl)]
    have hsi : (colGatherDims N E D wf).siIdx (ix2 k e) ⟨List.idxOf (1 : Fin 2) (colGatherDims N E D wf).startIndexMap,
        List.idxOf_lt_length_iff.2 (List.mem_singleton.mpr rfl)⟩ = edgeAt e := by
      funext b; refine Fin.ext ?_
      match b with
      | ⟨0, _⟩ => rfl
      | ⟨1, _⟩ => rfl
    rw [hsi]
    rfl

end Cert.LibColGather

end
-- ==== Proof.KChain.lean ====
/-
  What every buffer the idealized kernel program's results depend on holds at each boundary between a stretch of host
  operations and a region, from the launch to the return — and so the three results as one composition of the graph
  layers, the heads, the sample and the edge scores over the argument arrays.

  A stretch of host operations leaves in each buffer its operations' composed function of what the stretch found; a
  region leaves in its result arrays the whole-array function of its operands proved for it, and every other buffer as
  it found it.  Reading the last boundary back to the launch gives: result 1 the mean head and result 2 the
  log-variance head of the features after two layers; result 0 the scores, where the gather of the transposed latent
  array through an edge column, read at (feature, edge), is the latent row of the clamped endpoint at that feature.
-/
import proofs.«141248_j5162550690506_1_alg».proof.Proof.Gen.KernelIdeal.Frame
import proofs.«141248_j5162550690506_1_alg».proof.Proof.Chain
import proofs.«141248_j5162550690506_1_alg».proof.Proof.Reg0
import proofs.«141248_j5162550690506_1_alg».proof.Proof.Reg1
import proofs.«141248_j5162550690506_1_alg».proof.Proof.Reg2
import proofs.«141248_j5162550690506_1_alg».proof.Proof.Reg3
import proofs.«141248_j5162550690506_1_alg».proof.Proof.LibColGather
import Idealize.ShloMosaic.Lib.StableHlo.Run
import Idealize.ShloMosaic.Lib.ValueLayout

set_option maxRecDepth 16384

noncomputable section

namespace Cert.KernelIdeal.KChain

open Cert.KernelIdeal Cert.KernelIdeal.Gen Idealize.ShloMosaic Idealize.ShloMosaic.TcCoe Idealize.SL.Sem
open Idealize.ShloMosaic.ValueIdx Idealize.ShloMosaic.StableHlo Cert.LibEdgeIdx Cert.LibColGather

variable (m : (ℓ : Loc nD τ sig) → Buf (Elt Ideal) ℓ) (ρ : Dev nD → PrngReg) (c : Dev nD)

/-- An argument array as launched. -/
abbrev A (b : Ref sig .tc) : Buf (Elt Ideal) ((c : Thread nD τ).loc b) := m ((c : Thread nD τ).loc b)

/-! ## Entering region 0: after the first stretch -/

theorem W1_v1 : W1 m ρ c (Proc.devRef .tc main_v1) = Chain.src (A m c main_arg1) := by
  show StableHlo.after hostOps0 (W0 m ρ c) (Proc.devRef .tc main_v1) = _
  after_results_simp
  try rfl

theorem W1_v3 : W1 m ρ c (Proc.devRef .tc main_v3) = Chain.dst (A m c main_arg1) := by
  show StableHlo.after hostOps0 (W0 m ρ c) (Proc.devRef .tc main_v3) = _
  after_results_simp
  try rfl

theorem W1_v9 : W1 m ρ c (Proc.devRef .tc main_v9) = Chain.cnt (A m c main_arg1) := by
  show StableHlo.after hostOps0 (W0 m ρ c) (Proc.devRef .tc main_v9) = _
  after_results_simp
  try rfl

theorem W1_v21 : W1 m ρ c (Proc.devRef .tc main_v21) = Chain.agg (A m c main_arg1) (A m c main_arg0) := by
  show StableHlo.after hostOps0 (W0 m ρ c) (Proc.devRef .tc main_v21) = _
  after_results_simp
  try rfl

theorem W1_v22 : W1 m ρ c (Proc.devRef .tc main_v22) = shapeCast S1x128 (A m c main_arg5) shapeCasts_S128_S1x128 := by
  show StableHlo.after hostOps0 (W0 m ρ c) (Proc.devRef .tc main_v22) = _
  after_results_simp
  try rfl

theorem W1_arg0 : W1 m ρ c (Proc.devRef .tc main_arg0) = (A m c main_arg0) := by
  show StableHlo.after hostOps0 (W0 m ρ c) (Proc.devRef .tc main_arg0) = _
  after_results_simp
  try rfl

theorem W1_arg2 : W1 m ρ c (Proc.devRef .tc main_arg2) = (A m c main_arg2) := by
  show StableHlo.after hostOps0 (W0 m ρ c) (Proc.devRef .tc main_arg2) = _
  after_results_simp
  try rfl

theorem W1_arg3 : W1 m ρ c (Proc.devRef .tc main_arg3) = (A m c main_arg3) := by
  show StableHlo.after hostOps0 (W0 m ρ c) (Proc.devRef .tc main_arg3) = _
  after_results_simp
  try rfl

theorem W1_arg4 : W1 m ρ c (Proc.devRef .tc main_arg4) = (A m c main_arg4) := by
  show StableHlo.after hostOps0 (W0 m ρ c) (Proc.devRef .tc main_arg4) = _
  after_results_simp
  try rfl

theorem W1_arg6 : W1 m ρ c (Proc.devRef .tc main_arg6) = (A m c main_arg6) := by
  show StableHlo.after hostOps0 (W0 m ρ c) (Proc.devRef .tc main_arg6) = _
  after_results_simp
  try rfl

theorem W1_arg7 : W1 m ρ c (Proc.devRef .tc main_arg7) = (A m c main_arg7) := by
  show StableHlo.after hostOps0 (W0 m ρ c) (Proc.devRef .tc main_arg7) = _
  after_results_simp
  try rfl

theorem W1_arg8 : W1 m ρ c (Proc.devRef .tc main_arg8) = (A m c main_arg8) := by
  show StableHlo.after hostOps0 (W0 m ρ c) (Proc.devRef .tc main_arg8) = _
  after_results_simp
  try rfl

theorem W1_arg9 : W1 m ρ c (Proc.devRef .tc main_arg9) = (A m c main_arg9) := by
  show StableHlo.after hostOps0 (W0 m ρ c) (Proc.devRef .tc main_arg9) = _
  after_results_simp
  try rfl

theorem W1_arg10 : W1 m ρ c (Proc.devRef .tc main_arg10) = (A m c main_arg10) := by
  show StableHlo.after hostOps0 (W0 m ρ c) (Proc.devRef .tc main_arg10) = _
  after_results_simp
  try rfl

theorem W1_arg11 : W1 m ρ c (Proc.devRef .tc main_arg11) = (A m c main_arg11) := by
  show StableHlo.after hostOps0 (W0 m ρ c) (Proc.devRef .tc main_arg11) = _
  after_results_simp
  try rfl

theorem W1_arg12 : W1 m ρ c (Proc.devRef .tc main_arg12) = (A m c main_arg12) := by
  show StableHlo.after hostOps0 (W0 m ρ c) (Proc.devRef .tc main_arg12) = _
  after_results_simp
  try rfl

/-! ## Leaving region 0 -/

theorem W2_v23 : W2 m ρ c (Proc.devRef .tc main_v23) = (Chain.layer (A m c main_arg1) (A m c main_arg0) (A m c main_arg3) (A m c main_arg4) (A m c main_arg5)) := by
  refine (W2_arr m ρ c 5).trans ((Reg0.final (V1 m ρ) c).trans ?_)
  unfold Reg0.G Chain.layer
  have e0 : V1 m ρ c main_v21 = Chain.agg (A m c main_arg1) (A m c main_arg0) := W1_v21 m ρ c
  have e1 : V1 m ρ c main_arg0 = (A m c main_arg0) := W1_arg0 m ρ c
  have e2 : V1 m ρ c main_arg3 = (A m c main_arg3) := W1_arg3 m ρ c
  have e3 : V1 m ρ c main_arg4 = (A m c main_arg4) := W1_arg4 m ρ c
  have e4 : (fun q : Fin 128 => V1 m ρ c main_v22 (ix2 (0 : Fin 1) q)) = fun q => (A m c main_arg5) (ix1 q) := funext fun q => by
    rw [show V1 m ρ c main_v22 = shapeCast S1x128 (A m c main_arg5) shapeCasts_S128_S1x128 from W1_v22 m ρ c]
    exact shapeCast_a_1a_apply _ _ 0 q
  rw [e0, e1, e2, e3, e4]

theorem W2_v1 : W2 m ρ c (Proc.devRef .tc main_v1) = Chain.src (A m c main_arg1) :=
  (W2_of_ne m ρ c main_v1 (by decide)).trans (W1_v1 m ρ c)

theorem W2_v3 : W2 m ρ c (Proc.devRef .tc main_v3) = Chain.dst (A m c main_arg1) :=
  (W2_of_ne m ρ c main_v3 (by decide)).trans (W1_v3 m ρ c)

theorem W2_v9 : W2 m ρ c (Proc.devRef .tc main_v9) = Chain.cnt (A m c main_arg1) :=
  (W2_of_ne m ρ c main_v9 (by decide)).trans (W1_v9 m ρ c)

theorem W2_arg2 : W2 m ρ c (Proc.devRef .tc main_arg2) = (A m c main_arg2) :=
  (W2_of_ne m ρ c main_arg2 (by decide)).trans (W1_arg2 m ρ c)

theorem W2_arg6 : W2 m ρ c (Proc.devRef .tc main_arg6) = (A m c main_arg6) :=
  (W2_of_ne m ρ c main_arg6 (by decide)).trans (W1_arg6 m ρ c)

theorem W2_arg7 : W2 m ρ c (Proc.devRef .tc main_arg7) = (A m c main_arg7) :=
  (W2_of_ne m ρ c main_arg7 (by decide)).trans (W1_arg7 m ρ c)

theorem W2_arg8 : W2 m ρ c (Proc.devRef .tc main_arg8) = (A m c main_arg8) :=
  (W2_of_ne m ρ c main_arg8 (by decide)).trans (W1_arg8 m ρ c)

theorem W2_arg9 : W2 m ρ c (Proc.devRef .tc main_arg9) = (A m c main_arg9) :=
  (W2_of_ne m ρ c main_arg9 (by decide)).trans (W1_arg9 m ρ c)

theorem W2_arg10 : W2 m ρ c (Proc.devRef .tc main_arg10) = (A m c main_arg10) :=
  (W2_of_ne m ρ c main_arg10 (by decide)).trans (W1_arg10 m ρ c)

theorem W2_arg11 : W2 m ρ c (Proc.devRef .tc main_arg11) = (A m c main_arg11) :=
  (W2_of_ne m ρ c main_arg11 (by decide)).trans (W1_arg11 m ρ c)

theorem W2_arg12 : W2 m ρ c (Proc.devRef .tc main_arg12) = (A m c main_arg12) :=
  (W2_of_ne m ρ c main_arg12 (by decide)).trans (W1_arg12 m ρ c)

/-! ## Entering region 1: after the second stretch -/

theorem W3_v35 : W3 m ρ c (Proc.devRef .tc main_v35) = Chain.agg (A m c main_arg1) (Chain.layer (A m c main_arg1) (A m c main_arg0) (A m c main_arg3) (A m c main_arg4) (A m c main_arg5)) := by
  show StableHlo.after hostOps1 (W2 m ρ c) (Proc.devRef .tc main_v35) = _
  after_results_simp
  rw [W2_v1 m ρ c, W2_v3 m ρ c, W2_v9 m ρ c, W2_v23 m ρ c]
  try rfl

theorem W3_v23 : W3 m ρ c (Proc.devRef .tc main_v23) = (Chain.layer (A m c main_arg1) (A m c main_arg0) (A m c main_arg3) (A m c main_arg4) (A m c main_arg5)) := by
  show StableHlo.after hostOps1 (W2 m ρ c) (Proc.devRef .tc main_v23) = _
  after_results_simp
  exact W2_v23 m ρ c

theorem W3_v36 : W3 m ρ c (Proc.devRef .tc main_v36) = shapeCast S1x128 (A m c main_arg8) shapeCasts_S128_S1x128 := by
  show StableHlo.after hostOps1 (W2 m ρ c) (Proc.devRef .tc main_v36) = _
  after_results_simp
  rw [W2_arg8 m ρ c]
  try rfl

theorem W3_v1 : W3 m ρ c (Proc.devRef .tc main_v1) = Chain.src (A m c main_arg1) := by
  show StableHlo.after hostOps1 (W2 m ρ c) (Proc.devRef .tc main_v1) = _
  after_results_simp
  exact W2_v1 m ρ c

theorem W3_v3 : W3 m ρ c (Proc.devRef .tc main_v3) = Chain.dst (A m c main_arg1) := by
  show StableHlo.after hostOps1 (W2 m ρ c) (Proc.devRef .tc main_v3) = _
  after_results_simp
  exact W2_v3 m ρ c

theorem W3_arg2 : W3 m ρ c (Proc.devRef .tc main_arg2) = (A m c main_arg2) := by
  show StableHlo.after hostOps1 (W2 m ρ c) (Proc.devRef .tc main_arg2) = _
  after_results_simp
  exact W2_arg2 m ρ c

theorem W3_arg6 : W3 m ρ c (Proc.devRef .tc main_arg6) = (A m c main_arg6) := by
  show StableHlo.after hostOps1 (W2 m ρ c) (Proc.devRef .tc main_arg6) = _
  after_results_simp
  exact W2_arg6 m ρ c

theorem W3_arg7 : W3 m ρ c (Proc.devRef .tc main_arg7) = (A m c main_arg7) := by
  show StableHlo.after hostOps1 (W2 m ρ c) (Proc.devRef .tc main_arg7) = _
  after_results_simp
  exact W2_arg7 m ρ c

theorem W3_arg9 : W3 m ρ c (Proc.devRef .tc main_arg9) = (A m c main_arg9) := by
  show StableHlo.after hostOps1 (W2 m ρ c) (Proc.devRef .tc main_arg9) = _
  after_results_simp
  exact W2_arg9 m ρ c

theorem W3_arg10 : W3 m ρ c (Proc.devRef .tc main_arg10) = (A m c main_arg10) := by
  show StableHlo.after hostOps1 (W2 m ρ c) (Proc.devRef .tc main_arg10) = _
  after_results_simp
  exact W2_arg10 m ρ c

theorem W3_arg11 : W3 m ρ c (Proc.devRef .tc main_arg11) = (A m c main_arg11) := by
  show StableHlo.after hostOps1 (W2 m ρ c) (Proc.devRef .tc main_arg11) = _
  after_results_simp
  exact W2_arg11 m ρ c

theorem W3_arg12 : W3 m ρ c (Proc.devRef .tc main_arg12) = (A m c main_arg12) := by
  show StableHlo.after hostOps1 (W2 m ρ c) (Proc.devRef .tc main_arg12) = _
  after_results_simp
  exact W2_arg12 m ρ c

/-! ## Leaving region 1 -/

theorem W4_v37 : W4 m ρ c (Proc.devRef .tc main_v37) = (Chain.layer (A m c main_arg1) (Chain.layer (A m c main_arg1) (A m c main_arg0) (A m c main_arg3) (A m c main_arg4) (A m c main_arg5)) (A m c main_arg6) (A m c main_arg7) (A m c main_arg8)) := by
  refine (W4_arr m ρ c 5).trans ((Reg1.final (V3 m ρ) c).trans ?_)
  unfold Reg1.G Chain.layer
  have e0 : V3 m ρ c main_v35 = Chain.agg (A m c main_arg1) (Chain.layer (A m c main_arg1) (A m c main_arg0) (A m c main_arg3) (A m c main_arg4) (A m c main_arg5)) := W3_v35 m ρ c
  have e1 : V3 m ρ c main_v23 = (Chain.layer (A m c main_arg1) (A m c main_arg0) (A m c main_arg3) (A m c main_arg4) (A m c main_arg5)) := W3_v23 m ρ c
  have e2 : V3 m ρ c main_arg6 = (A m c main_arg6) := W3_arg6 m ρ c
  have e3 : V3 m ρ c main_arg7 = (A m c main_arg7) := W3_arg7 m ρ c
  have e4 : (fun q : Fin 128 => V3 m ρ c main_v36 (ix2 (0 : Fin 1) q)) = fun q => (A m c main_arg8) (ix1 q) := funext fun q => by
    rw [show V3 m ρ c main_v36 = shapeCast S1x128 (A m c main_arg8) shapeCasts_S128_S1x128 from W3_v36 m ρ c]
    exact shapeCast_a_1a_apply _ _ 0 q
  rw [e0, e1, e2, e3, e4]
  rfl

theorem W4_v1 : W4 m ρ c (Proc.devRef .tc main_v1) = Chain.src (A m c main_arg1) :=
  (W4_of_ne m ρ c main_v1 (by decide)).trans (W3_v1 m ρ c)

theorem W4_v3 : W4 m ρ c (Proc.devRef .tc main_v3) = Chain.dst (A m c main_arg1) :=
  (W4_of_ne m ρ c main_v3 (by decide)).trans (W3_v3 m ρ c)

theorem W4_arg2 : W4 m ρ c (Proc.devRef .tc main_arg2) = (A m c main_arg2) :=
  (W4_of_ne m ρ c main_arg2 (by decide)).trans (W3_arg2 m ρ c)

theorem W4_arg9 : W4 m ρ c (Proc.devRef .tc main_arg9) = (A m c main_arg9) :=
  (W4_of_ne m ρ c main_arg9 (by decide)).trans (W3_arg9 m ρ c)

theorem W4_arg10 : W4 m ρ c (Proc.devRef .tc main_arg10) = (A m c main_arg10) :=
  (W4_of_ne m ρ c main_arg10 (by decide)).trans (W3_arg10 m ρ c)

theorem W4_arg11 : W4 m ρ c (Proc.devRef .tc main_arg11) = (A m c main_arg11) :=
  (W4_of_ne m ρ c main_arg11 (by decide)).trans (W3_arg11 m ρ c)

theorem W4_arg12 : W4 m ρ c (Proc.devRef .tc main_arg12) = (A m c main_arg12) :=
  (W4_of_ne m ρ c main_arg12 (by decide)).trans (W3_arg12 m ρ c)

/-! ## Entering region 2: after the third stretch -/

theorem W5_v37 : W5 m ρ c (Proc.devRef .tc main_v37) = (Chain.layer (A m c main_arg1) (Chain.layer (A m c main_arg1) (A m c main_arg0) (A m c main_arg3) (A m c main_arg4) (A m c main_arg5)) (A m c main_arg6) (A m c main_arg7) (A m c main_arg8)) := by
  show StableHlo.after hostOps2 (W4 m ρ c) (Proc.devRef .tc main_v37) = _
  after_results_simp
  exact W4_v37 m ρ c

theorem W5_v38 : W5 m ρ c (Proc.devRef .tc main_v38) = shapeCast S1x32 (A m c main_arg10) shapeCasts_S32_S1x32 := by
  show StableHlo.after hostOps2 (W4 m ρ c) (Proc.devRef .tc main_v38) = _
  after_results_simp
  rw [W4_arg10 m ρ c]
  try rfl

theorem W5_v39 : W5 m ρ c (Proc.devRef .tc main_v39) = shapeCast S1x32 (A m c main_arg12) shapeCasts_S32_S1x32 := by
  show StableHlo.after hostOps2 (W4 m ρ c) (Proc.devRef .tc main_v39) = _
  after_results_simp
  rw [W4_arg12 m ρ c]
  try rfl

theorem W5_v1 : W5 m ρ c (Proc.devRef .tc main_v1) = Chain.src (A m c main_arg1) := by
  show StableHlo.after hostOps2 (W4 m ρ c) (Proc.devRef .tc main_v1) = _
  after_results_simp
  exact W4_v1 m ρ c

theorem W5_v3 : W5 m ρ c (Proc.devRef .tc main_v3) = Chain.dst (A m c main_arg1) := by
  show StableHlo.after hostOps2 (W4 m ρ c) (Proc.devRef .tc main_v3) = _
  after_results_simp
  exact W4_v3 m ρ c

theorem W5_arg2 : W5 m ρ c (Proc.devRef .tc main_arg2) = (A m c main_arg2) := by
  show StableHlo.after hostOps2 (W4 m ρ c) (Proc.devRef .tc main_arg2) = _
  after_results_simp
  exact W4_arg2 m ρ c

theorem W5_arg9 : W5 m ρ c (Proc.devRef .tc main_arg9) = (A m c main_arg9) := by
  show StableHlo.after hostOps2 (W4 m ρ c) (Proc.devRef .tc main_arg9) = _
  after_results_simp
  exact W4_arg9 m ρ c

theorem W5_arg11 : W5 m ρ c (Proc.devRef .tc main_arg11) = (A m c main_arg11) := by
  show StableHlo.after hostOps2 (W4 m ρ c) (Proc.devRef .tc main_arg11) = _
  after_results_simp
  exact W4_arg11 m ρ c

/-! ## Leaving region 2 -/

theorem gmu_eq : Reg2.Gmu (V5 m ρ) c = (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) := by
  unfold Reg2.Gmu Chain.head
  have e0 : V5 m ρ c main_v37 = (Chain.layer (A m c main_arg1) (Chain.layer (A m c main_arg1) (A m c main_arg0) (A m c main_arg3) (A m c main_arg4) (A m c main_arg5)) (A m c main_arg6) (A m c main_arg7) (A m c main_arg8)) := W5_v37 m ρ c
  have e1 : V5 m ρ c main_arg9 = (A m c main_arg9) := W5_arg9 m ρ c
  have e2 : (fun q : Fin 32 => V5 m ρ c main_v38 (ix2 (0 : Fin 1) q)) = fun q => (A m c main_arg10) (ix1 q) := funext fun q => by
    rw [show V5 m ρ c main_v38 = shapeCast S1x32 (A m c main_arg10) shapeCasts_S32_S1x32 from W5_v38 m ρ c]
    exact shapeCast_a_1a_apply _ _ 0 q
  rw [e0, e1, e2]

theorem glv_eq : Reg2.Glv (V5 m ρ) c = (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) := by
  unfold Reg2.Glv Chain.head
  have e0 : V5 m ρ c main_v37 = (Chain.layer (A m c main_arg1) (Chain.layer (A m c main_arg1) (A m c main_arg0) (A m c main_arg3) (A m c main_arg4) (A m c main_arg5)) (A m c main_arg6) (A m c main_arg7) (A m c main_arg8)) := W5_v37 m ρ c
  have e1 : V5 m ρ c main_arg11 = (A m c main_arg11) := W5_arg11 m ρ c
  have e2 : (fun q : Fin 32 => V5 m ρ c main_v39 (ix2 (0 : Fin 1) q)) = fun q => (A m c main_arg12) (ix1 q) := funext fun q => by
    rw [show V5 m ρ c main_v39 = shapeCast S1x32 (A m c main_arg12) shapeCasts_S32_S1x32 from W5_v39 m ρ c]
    exact shapeCast_a_1a_apply _ _ 0 q
  rw [e0, e1, e2]

theorem gz_eq : Reg2.Gz (V5 m ρ) c = (Spec.sample (S := S50000x32) (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) (A m c main_arg2)) := by
  unfold Reg2.Gz
  rw [gmu_eq, glv_eq, show V5 m ρ c main_arg2 = (A m c main_arg2) from W5_arg2 m ρ c]

theorem W6_v40_0 : W6 m ρ c (Proc.devRef .tc main_v40_0) = (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) :=
  (W6_arr m ρ c 6).trans ((Reg2.final6 (V5 m ρ) c).trans (gmu_eq m ρ c))
theorem W6_v40_1 : W6 m ρ c (Proc.devRef .tc main_v40_1) = (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) :=
  (W6_arr m ρ c 7).trans ((Reg2.final7 (V5 m ρ) c).trans (glv_eq m ρ c))
theorem W6_v40_2 : W6 m ρ c (Proc.devRef .tc main_v40_2) = (Spec.sample (S := S50000x32) (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) (A m c main_arg2)) :=
  (W6_arr m ρ c 8).trans ((Reg2.final8 (V5 m ρ) c).trans (gz_eq m ρ c))
theorem W6_v1 : W6 m ρ c (Proc.devRef .tc main_v1) = Chain.src (A m c main_arg1) :=
  (W6_of_ne m ρ c main_v1 (by decide)).trans (W5_v1 m ρ c)

theorem W6_v3 : W6 m ρ c (Proc.devRef .tc main_v3) = Chain.dst (A m c main_arg1) :=
  (W6_of_ne m ρ c main_v3 (by decide)).trans (W5_v3 m ρ c)

/-! ## Entering region 3: after the fourth stretch -/

theorem W7_v48 : W7 m ρ c (Proc.devRef .tc main_v48) = (Host.gather gather_S32x50000_S1600000x1_S32x1600000_0_1_n_n_1_1_321 (transpose S32x50000 [1, 0] (Spec.sample (S := S50000x32) (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) (A m c main_arg2)) transposes_S50000x32_S32x50000_1_0) (Chain.col (Chain.src (A m c main_arg1)))) := by
  show StableHlo.after hostOps3 (W6 m ρ c) (Proc.devRef .tc main_v48) = _
  after_results_simp
  rw [W6_v40_2 m ρ c, W6_v1 m ρ c]
  try rfl

theorem W7_v55 : W7 m ρ c (Proc.devRef .tc main_v55) = (Host.gather gather_S32x50000_S1600000x1_S32x1600000_0_1_n_n_1_1_321 (transpose S32x50000 [1, 0] (Spec.sample (S := S50000x32) (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) (A m c main_arg2)) transposes_S50000x32_S32x50000_1_0) (Chain.col (Chain.dst (A m c main_arg1)))) := by
  show StableHlo.after hostOps3 (W6 m ρ c) (Proc.devRef .tc main_v55) = _
  after_results_simp
  rw [W6_v40_2 m ρ c, W6_v3 m ρ c]
  try rfl

theorem W7_v40_0 : W7 m ρ c (Proc.devRef .tc main_v40_0) = (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) := by
  show StableHlo.after hostOps3 (W6 m ρ c) (Proc.devRef .tc main_v40_0) = _
  after_results_simp
  exact W6_v40_0 m ρ c

theorem W7_v40_1 : W7 m ρ c (Proc.devRef .tc main_v40_1) = (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) := by
  show StableHlo.after hostOps3 (W6 m ρ c) (Proc.devRef .tc main_v40_1) = _
  after_results_simp
  exact W6_v40_1 m ρ c

/-! ## Leaving region 3, and the last stretch -/

theorem W8_v56 : W8 m ρ c (Proc.devRef .tc main_v56) = Reg3.score (Host.gather gather_S32x50000_S1600000x1_S32x1600000_0_1_n_n_1_1_321 (transpose S32x50000 [1, 0] (Spec.sample (S := S50000x32) (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) (A m c main_arg2)) transposes_S50000x32_S32x50000_1_0) (Chain.col (Chain.src (A m c main_arg1)))) (Host.gather gather_S32x50000_S1600000x1_S32x1600000_0_1_n_n_1_1_321 (transpose S32x50000 [1, 0] (Spec.sample (S := S50000x32) (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) (A m c main_arg2)) transposes_S50000x32_S32x50000_1_0) (Chain.col (Chain.dst (A m c main_arg1)))) := by
  refine (W8_arr m ρ c 2).trans ((Reg3.final (V7 m ρ) c).trans ?_)
  unfold Reg3.G
  rw [show V7 m ρ c main_v48 = (Host.gather gather_S32x50000_S1600000x1_S32x1600000_0_1_n_n_1_1_321 (transpose S32x50000 [1, 0] (Spec.sample (S := S50000x32) (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) (A m c main_arg2)) transposes_S50000x32_S32x50000_1_0) (Chain.col (Chain.src (A m c main_arg1)))) from W7_v48 m ρ c, show V7 m ρ c main_v55 = (Host.gather gather_S32x50000_S1600000x1_S32x1600000_0_1_n_n_1_1_321 (transpose S32x50000 [1, 0] (Spec.sample (S := S50000x32) (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) (A m c main_arg2)) transposes_S50000x32_S32x50000_1_0) (Chain.col (Chain.dst (A m c main_arg1)))) from W7_v55 m ρ c]
theorem W8_v40_0 : W8 m ρ c (Proc.devRef .tc main_v40_0) = (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) :=
  (W8_of_ne m ρ c main_v40_0 (by decide)).trans (W7_v40_0 m ρ c)

theorem W8_v40_1 : W8 m ρ c (Proc.devRef .tc main_v40_1) = (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) :=
  (W8_of_ne m ρ c main_v40_1 (by decide)).trans (W7_v40_1 m ρ c)

/-- The gather of the transposed latent array through an edge column, read at (feature, edge): the latent row of the
    clamped endpoint, at that feature. -/
theorem gcol_apply (z : Chain.FArr S50000x32) (idx : Chain.IArr S1600000x1) (f : Fin 32) (e : Fin 1600000) :
    Host.gather gather_S32x50000_S1600000x1_S32x1600000_0_1_n_n_1_1_321 (transpose S32x50000 [1, 0] z transposes_S50000x32_S32x50000_1_0) idx (ix2 f e)
      = z (ix2 (clampIdx 50000 (by decide) (idx (edgeAt e))) f) := by
  have hrec : gather_S32x50000_S1600000x1_S32x1600000_0_1_n_n_1_1_321 = colGatherDims 50000 1600000 32 gather_S32x50000_S1600000x1_S32x1600000_0_1_n_n_1_1_321.wf := rfl
  rw [hrec]
  refine (gather_cols_apply (by decide) _ _ idx f e).trans ?_
  exact transpose_ix2_apply z _ f _

/-- RESULT 1: the mean head of the features after the two layers. -/
theorem res1 : W9 m ρ c (Proc.devRef .tc main_v40_0) = (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) := by
  show StableHlo.after hostOps4 (W8 m ρ c) (Proc.devRef .tc main_v40_0) = _
  after_results_simp
  exact W8_v40_0 m ρ c

/-- RESULT 2: the log-variance head of the features after the two layers. -/
theorem res2 : W9 m ρ c (Proc.devRef .tc main_v40_1) = (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) := by
  show StableHlo.after hostOps4 (W8 m ρ c) (Proc.devRef .tc main_v40_1) = _
  after_results_simp
  exact W8_v40_1 m ρ c

/-- RESULT 0: every edge's score from the latent sample. -/
theorem res0 : W9 m ρ c (Proc.devRef .tc main_v57) = Chain.scores (A m c main_arg1) (Spec.sample (S := S50000x32) (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) (A m c main_arg2)) := by
  show StableHlo.after hostOps4 (W8 m ρ c) (Proc.devRef .tc main_v57) = _
  after_results_simp
  rw [W8_v56 m ρ c]
  funext i
  obtain ⟨e, rfl⟩ : ∃ e : Fin 1600000, i = ix1 e := ⟨i 0, eq_ix1 i⟩
  refine (shapeCast_1a_a_apply _ shapeCasts_S1x1600000_S1600000 e).trans ?_
  rw [Reg3.score_ix2]
  show _ = Spec.decodeAt (N := 50000) (by decide) (Spec.sample (S := S50000x32) (Chain.head (Chain.layer (A m c main_arg1) (Chain.layer (A m c main_arg1) (A m c main_arg0) (A m c main_arg3) (A m c main_arg4) (A m c main_arg5)) (A m c main_arg6) (A m c main_arg7) (A m c main_arg8)) (A m c main_arg9) (A m c main_arg10)) (Chain.head (Chain.layer (A m c main_arg1) (Chain.layer (A m c main_arg1) (A m c main_arg0) (A m c main_arg3) (A m c main_arg4) (A m c main_arg5)) (A m c main_arg6) (A m c main_arg7) (A m c main_arg8)) (A m c main_arg11) (A m c main_arg12)) (A m c main_arg2)) (Chain.col (Chain.src (A m c main_arg1))) (Chain.col (Chain.dst (A m c main_arg1))) e
  unfold Spec.decodeAt
  refine congrArg Ideal.logistic (Finset.sum_congr rfl fun f _ => ?_)
  rw [gcol_apply, gcol_apply]

end Cert.KernelIdeal.KChain

end
-- ==== Proof.RefBridge.lean ====
/-
  The idealized reference read as the same composition as the kernel program: its host operations, stage by stage,
  are the graph layers, the heads, the sample and the edge scores of the shared specification.

  The reference's neighbourhood mean is, operation for operation, the kernel program's (the same slices, wrap, gather,
  scatter-sum, count and division).  Its layer `max (a·Wl + h·Wr + b, 0)` with the host's products is the layer's
  formula entry by entry: a host product at exact arithmetic is the plain sum over the contracted axis.  Its edge score
  `1 / (1 + exp (−s))` is the logistic function of `s`, where `s` is the row sum of the product of the latent rows
  gathered at the two endpoints: a row gather through an edge column reads the latent row of the clamped endpoint.
-/
import proofs.«141248_j5162550690506_1_alg».proof.Proof.Gen.ReferenceIdeal.Read
import proofs.«141248_j5162550690506_1_alg».proof.Proof.Chain
import proofs.«141248_j5162550690506_1_alg».proof.Proof.LibDotEntries
import proofs.«141248_j5162550690506_1_alg».proof.Proof.LibEdgeIdx
import Idealize.ShloMosaic.Lib.Pipeline.Value
import Idealize.ShloMosaic.Lib.ValueIdx
import Idealize.ShloMosaic.PureOps.Ideal.Laws

noncomputable section

namespace Cert.ReferenceIdeal.Bridge

open Cert.ReferenceIdeal Cert.ReferenceIdeal.Gen Cert.ReferenceIdeal.Read
open Idealize.ShloMosaic Idealize.ShloMosaic.TcCoe Idealize.SL.Sem Idealize.ShloMosaic.ValueIdx
open Cert.Lib.DotEntries Cert.LibEdgeIdx

/-- A float array and an integer array of a shape, at exact arithmetic. -/
abbrev RF (S : Shape) : Type := FVec Ideal S .f32
abbrev RI (S : Shape) : Type := IVec S 32

/-- The binary32 word of one denotes one. -/
theorem ofBits_one : Ideal.ofBits .f32 0x3F800000#32 = 1 := by
  simp [Ideal.ofBits, Ideal.ieee, -EReal.coe_mul]; norm_num

theorem dotR_eq : dot_S50000x128_S128x128_S50000x128_1_0_0_1_n_n = DotDims.plain 50000 128 128 := rfl
theorem dotH_eq : dot_S50000x128_S128x32_S50000x32_1_0_0_1_n_n = DotDims.plain 50000 128 32 := rfl

/-- A bias vector made a row and broadcast over the rows, at an entry. -/
theorem bias128 (b : RF S128) (p : Fin 50000) (q : Fin 128) :
    broadcastInDim S50000x128 ![0, 1] bcast_S1x128_S50000x128_0_1 (broadcastInDim S1x128 ![1] bcast_S128_S1x128_1 b) (ix2 p q)
      = b (ix1 q) := by
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

theorem bias32 (b : RF S32) (p : Fin 50000) (q : Fin 32) :
    broadcastInDim S50000x32 ![0, 1] bcast_S1x32_S50000x32_0_1 (broadcastInDim S1x32 ![1] bcast_S32_S1x32_1 b) (ix2 p q)
      = b (ix1 q) := by
  refine (broadcastInDim_apply _ bcast_S1x32_S50000x32_0_1 _ (ix2 p q) (ix2 (0 : Fin 1) q) (fun a => match a with
    | ⟨0, _⟩ => by show 0 = if (1 : Nat) = 1 then 0 else p.val; rw [if_pos rfl]
    | ⟨1, _⟩ => by show q.val = if (32 : Nat) = 1 then 0 else q.val; rw [if_neg (by decide)])).trans ?_
  exact broadcastInDim_apply _ bcast_S32_S1x32_1 b (ix2 (0 : Fin 1) q) (ix1 q) (fun a => match a with
    | ⟨0, _⟩ => by show q.val = if (32 : Nat) = 1 then 0 else q.val; rw [if_neg (by decide)])

/-- The host's layer is the layer's formula, entry by entry. -/
theorem layer_eq (a h : RF S50000x128) (Wl Wr : RF S128x128) (b : RF S128) :
    maximumf (addf (addf (Host.dotGeneral dot_S50000x128_S128x128_S50000x128_1_0_0_1_n_n none a Wl) (Host.dotGeneral dot_S50000x128_S128x128_S50000x128_1_0_0_1_n_n none h Wr))
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))
    = Spec.combine a h Wl Wr (fun q => b (ix1 q)) := by
  funext i
  obtain ⟨p, q, rfl⟩ : ∃ (p : Fin 50000) (q : Fin 128), i = ix2 p q := ⟨i 0, i 1, eq_ix2 i⟩
  rw [Spec.combine_ix2]
  unfold Spec.combineAt Spec.mm
  have hd : ∀ (u : RF S50000x128) (w : RF S128x128),
      Host.dotGeneral (F := Ideal) dot_S50000x128_S128x128_S50000x128_1_0_0_1_n_n none u w (ix2 p q) = ∑ k : Fin 128, u (ix2 p k) * w (ix2 k q) := by
    intro u w
    rw [dotR_eq]
    exact dotGeneral_plain_ix2 u w p q
  show max (Host.dotGeneral (F := Ideal) dot_S50000x128_S128x128_S50000x128_1_0_0_1_n_n none a Wl (ix2 p q) + Host.dotGeneral (F := Ideal) dot_S50000x128_S128x128_S50000x128_1_0_0_1_n_n none h Wr (ix2 p q)
      + broadcastInDim S50000x128 ![0, 1] bcast_S1x128_S50000x128_0_1 (broadcastInDim S1x128 ![1] bcast_S128_S1x128_1 b) (ix2 p q))
    (Ideal.ofBits .f32 0x00000000#32) = _
  rw [hd, hd, bias128, Ideal.ofBits_zero_f32]

/-- The host's head is the affine formula, entry by entry. -/
theorem head_eq (h : RF S50000x128) (W : RF S128x32) (b : RF S32) :
    addf (Host.dotGeneral dot_S50000x128_S128x32_S50000x32_1_0_0_1_n_n none h W)
        (broadcastInDim S50000x32 ![0, 1] bcast_S1x32_S50000x32_0_1 (broadcastInDim S1x32 ![1] bcast_S32_S1x32_1 b))
    = Spec.affine h W (fun q => b (ix1 q)) := by
  funext i
  obtain ⟨p, q, rfl⟩ : ∃ (p : Fin 50000) (q : Fin 32), i = ix2 p q := ⟨i 0, i 1, eq_ix2 i⟩
  rw [Spec.affine_ix2]
  unfold Spec.affineAt Spec.mm
  have hd : Host.dotGeneral (F := Ideal) dot_S50000x128_S128x32_S50000x32_1_0_0_1_n_n none h W (ix2 p q) = ∑ k : Fin 128, h (ix2 p k) * W (ix2 k q) := by
    rw [dotH_eq]
    exact dotGeneral_plain_ix2 h W p q
  show Host.dotGeneral (F := Ideal) dot_S50000x128_S128x32_S50000x32_1_0_0_1_n_n none h W (ix2 p q)
      + broadcastInDim S50000x32 ![0, 1] bcast_S1x32_S50000x32_0_1 (broadcastInDim S1x32 ![1] bcast_S32_S1x32_1 b) (ix2 p q) = _
  rw [hd, bias32]

/-! ## The reference's stages -/

section Stages

variable (x0 : RF S50000x128) (x1 : RI S2x1600000) (x2 : RF S50000x32) (x3 x4 : RF S128x128) (x5 : RF S128)
  (x6 x7 : RF S128x128) (x8 : RF S128) (x9 : RF S128x32) (x10 : RF S32) (x11 : RF S128x32) (x12 : RF S32)

/-- The reference's first neighbourhood mean is the kernel program's, operation for operation. -/
theorem agg0_eq : val_main_v21 (F := Ideal) x0 x1 = Cert.KernelIdeal.Chain.agg x1 x0 := rfl

theorem v28_eq : val_main_v28 (F := Ideal) x0 x1 x3 x4 x5 = Cert.KernelIdeal.Chain.layer x1 x0 x3 x4 x5 := by
  show _ = Spec.combine (Cert.KernelIdeal.Chain.agg x1 x0) x0 x3 x4 (fun q => x5 (ix1 q))
  rw [← agg0_eq]
  exact layer_eq (val_main_v21 (F := Ideal) x0 x1) x0 x3 x4 x5

/-- The reference's second neighbourhood mean is the kernel program's chain at the first layer's features. -/
theorem agg1_eq : val_main_v46 (F := Ideal) x0 x1 x3 x4 x5
    = Cert.KernelIdeal.Chain.agg x1 (val_main_v28 (F := Ideal) x0 x1 x3 x4 x5) := rfl

theorem v53_eq : val_main_v53 (F := Ideal) x0 x1 x3 x4 x5 x6 x7 x8
    = Cert.KernelIdeal.Chain.layer x1 (Cert.KernelIdeal.Chain.layer x1 x0 x3 x4 x5) x6 x7 x8 := by
  rw [← v28_eq x0 x1 x3 x4 x5]
  unfold Cert.KernelIdeal.Chain.layer
  rw [← agg1_eq]
  exact layer_eq (val_main_v46 (F := Ideal) x0 x1 x3 x4 x5) (val_main_v28 (F := Ideal) x0 x1 x3 x4 x5) x6 x7 x8

theorem v57_eq : val_main_v57 (F := Ideal) x0 x1 x3 x4 x5 x6 x7 x8 x9 x10
    = Cert.KernelIdeal.Chain.head (Cert.KernelIdeal.Chain.layer x1 (Cert.KernelIdeal.Chain.layer x1 x0 x3 x4 x5) x6 x7 x8) x9 x10 := by
  rw [← v53_eq]
  exact head_eq (val_main_v53 (F := Ideal) x0 x1 x3 x4 x5 x6 x7 x8) x9 x10

theorem v61_eq : val_main_v61 (F := Ideal) x0 x1 x3 x4 x5 x6 x7 x8 x11 x12
    = Cert.KernelIdeal.Chain.head (Cert.KernelIdeal.Chain.layer x1 (Cert.KernelIdeal.Chain.layer x1 x0 x3 x4 x5) x6 x7 x8) x11 x12 := by
  rw [← v53_eq]
  exact head_eq (val_main_v53 (F := Ideal) x0 x1 x3 x4 x5 x6 x7 x8) x11 x12

/-- The reference's latent sample is the sample of its two heads. -/
theorem v66_eq : val_main_v66 (F := Ideal) x0 x1 x2 x3 x4 x5 x6 x7 x8 x9 x10 x11 x12
    = Spec.sample (S := S50000x32) (val_main_v57 (F := Ideal) x0 x1 x3 x4 x5 x6 x7 x8 x9 x10)
        (val_main_v61 (F := Ideal) x0 x1 x3 x4 x5 x6 x7 x8 x11 x12) x2 := by
  funext i
  rw [val_main_v66_apply, val_main_v65_apply, val_main_v64_apply, val_main_v63_apply, val_main_v62_apply, val_main_cst_10_apply]
  simp only [Spec.sample, Ideal.addf_def, Ideal.mulf_def, Ideal.hostUnary_exp_def, Ideal.ofBits_def]

end Stages

/-! ## The edge scores -/

/-- A row gather of the latent array through an edge column, read at (edge, feature): the latent row of the clamped
    endpoint, at that feature. -/
theorem grow_apply (z : RF S50000x32) (idx : RI S1600000x1) (e : Fin 1600000) (k : Fin 32) :
    Host.gather gather_S50000x32_S1600000x1_S1600000x32_1_0_n_n_0_1_132 z idx (ix2 e k) = z (ix2 (clampIdx 50000 (by decide) (idx (edgeAt e))) k) := by
  have hrec : gather_S50000x32_S1600000x1_S1600000x32_1_0_n_n_0_1_132 = rowGatherDims 50000 1600000 32 gather_S50000x32_S1600000x1_S1600000x32_1_0_n_n_0_1_132.wf := rfl
  rw [hrec]
  exact gather_rows_apply (by decide) _ z idx e k

/-- The host's sum over the 32 features of a row, from zero. -/
theorem rowsum_apply (y : RF S1600000x32) (e : Fin 1600000) :
    Host.reduceAdd (F := Ideal) y (constant (F := Ideal) S_ .f32 0x00000000#32) reducesTo_S1600000x32_S1600000_d1 h_S_ (ix1 e)
      = ∑ k : Fin 32, y (ix2 e k) := by
  simp only [Host.reduceAdd, Ideal.hostReduceAdd_def]
  rw [Ideal.hostReduceAdd_single reducesTo_S1600000x32_S1600000_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

theorem hdiv_apply {S : Shape} (a b : FVec Ideal S .f32) (i : S.Idx) : Host.divf a b i = Ideal.div (a i) (b i) := rfl
theorem hexp_apply {S : Shape} (a : FVec Ideal S .f32) (i : S.Idx) : Host.exp a i = Ideal.exp (a i) := rfl
theorem hneg_apply {S : Shape} (a : FVec Ideal S .f32) (i : S.Idx) : Host.negf a i = -(a i) := rfl
theorem bconst_apply (w : BitVec 32) (i : S1600000.Idx) :
    broadcastInDim S1600000 ![] bcast_S_S1600000 (constant (F := Ideal) S_ .f32 w) i = Ideal.ofBits .f32 w :=
  broadcastInDim_apply _ bcast_S_S1600000 _ i ix0 (fun a => a.elim0)

/-- The host's `1 / (1 + exp (−s))` over the row sums of the products of the gathered latent rows is every edge's
    score. -/
theorem scores_eq (z : RF S50000x32) (iS iD : RI S1600000x1) :
    Host.divf (broadcastInDim S1600000 ![] bcast_S_S1600000 (constant (F := Ideal) S_ .f32 0x3F800000#32))
      (addf (broadcastInDim S1600000 ![] bcast_S_S1600000 (constant (F := Ideal) S_ .f32 0x3F800000#32))
        (Host.exp (Host.negf (Host.reduceAdd (mulf (Host.gather gather_S50000x32_S1600000x1_S1600000x32_1_0_n_n_0_1_132 z iS) (Host.gather gather_S50000x32_S1600000x1_S1600000x32_1_0_n_n_0_1_132 z iD))
          (constant (F := Ideal) S_ .f32 0x00000000#32) reducesTo_S1600000x32_S1600000_d1 h_S_))))
    = fun i => Spec.decodeAt (N := 50000) (by decide) z iS iD (i 0) := by
  funext i
  obtain ⟨e, rfl⟩ : ∃ e : Fin 1600000, i = ix1 e := ⟨i 0, eq_ix1 i⟩
  rw [hdiv_apply, addf_apply, bconst_apply, hexp_apply, hneg_apply, rowsum_apply, ofBits_one]
  show _ = Spec.decodeAt (N := 50000) (by decide) z iS iD e
  unfold Spec.decodeAt Ideal.logistic
  refine congrArg (fun s => Ideal.div 1 (1 + Ideal.exp (-s))) (Finset.sum_congr rfl fun k _ => ?_)
  show Host.gather gather_S50000x32_S1600000x1_S1600000x32_1_0_n_n_0_1_132 z iS (ix2 e k) * Host.gather gather_S50000x32_S1600000x1_S1600000x32_1_0_n_n_0_1_132 z iD (ix2 e k) = _
  rw [grow_apply, grow_apply]

section Scores

variable (x0 : RF S50000x128) (x1 : RI S2x1600000) (x2 : RF S50000x32) (x3 x4 : RF S128x128) (x5 : RF S128)
  (x6 x7 : RF S128x128) (x8 : RF S128) (x9 : RF S128x32) (x10 : RF S32) (x11 : RF S128x32) (x12 : RF S32)

/-- The reference's two gather columns are the kernel program's wrapped edge columns. -/
theorem colS_eq : val_main_v72 (F := Ideal) x1 = Cert.KernelIdeal.Chain.col (Cert.KernelIdeal.Chain.src x1) := rfl
theorem colD_eq : val_main_v79 (F := Ideal) x1 = Cert.KernelIdeal.Chain.col (Cert.KernelIdeal.Chain.dst x1) := rfl

theorem v88_eq : val_main_v88 (F := Ideal) x0 x1 x2 x3 x4 x5 x6 x7 x8 x9 x10 x11 x12
    = Cert.KernelIdeal.Chain.scores x1 (val_main_v66 (F := Ideal) x0 x1 x2 x3 x4 x5 x6 x7 x8 x9 x10 x11 x12) := by
  unfold Cert.KernelIdeal.Chain.scores
  rw [← colS_eq, ← colD_eq]
  exact scores_eq (val_main_v66 (F := Ideal) x0 x1 x2 x3 x4 x5 x6 x7 x8 x9 x10 x11 x12) (val_main_v72 (F := Ideal) x1) (val_main_v79 (F := Ideal) x1)

end Scores

end Cert.ReferenceIdeal.Bridge

end
-- ==== Proof.lean ====
/-
  The certificate of a two-layer graph encoder with mean aggregation, two affine heads, a latent sample and
  inner-product edge scores: the kernel program (four row- or edge-blocked regions among host gathers and scatter-sums)
  against its plain reference.

  The three frames: the two kernel programs' are the region-by-region frame runs; the reference's is its run with the
  results dropped.  The idealization rewrote nothing, so there is nothing to preserve.  The value claim: at exact
  arithmetic both programs end with the same three arrays — the edge scores, the mean head and the log-variance head of
  the shared specification (Spec.lean, Chain.lean) at the argument arrays.  On the kernel side each region leaves the
  whole-array function of its operands (Reg0 … Reg3: a matrix unit product into a zero accumulator is a plain sum, the
  row blocks tile the arrays) and the host stretches between them compose (KChain.lean); on the reference side each host
  stage is the same function (RefBridge.lean).  No step divides, cancels or distributes: only the order and grouping of
  sums differ, so the inputs' finiteness is never used.
-/
import proofs.«141248_j5162550690506_1_alg».proof.Defs
import proofs.«141248_j5162550690506_1_alg».proof.Proof.Gen.Kernel
import proofs.«141248_j5162550690506_1_alg».proof.Proof.Gen.Kernel.Skeleton
import proofs.«141248_j5162550690506_1_alg».proof.Proof.Gen.Kernel.Launch
import proofs.«141248_j5162550690506_1_alg».proof.Proof.Gen.Kernel.Points
import proofs.«141248_j5162550690506_1_alg».proof.Proof.Gen.Kernel.Frame
import proofs.«141248_j5162550690506_1_alg».proof.Proof.Gen.KernelIdeal
import proofs.«141248_j5162550690506_1_alg».proof.Proof.Gen.KernelIdeal.Skeleton
import proofs.«141248_j5162550690506_1_alg».proof.Proof.Gen.KernelIdeal.Launch
import proofs.«141248_j5162550690506_1_alg».proof.Proof.Gen.KernelIdeal.Points
import proofs.«141248_j5162550690506_1_alg».proof.Proof.Gen.KernelIdeal.Frame
import proofs.«141248_j5162550690506_1_alg».proof.Proof.Gen.ReferenceIdeal
import proofs.«141248_j5162550690506_1_alg».proof.Proof.Gen.Pre_finite_inputs
import proofs.«141248_j5162550690506_1_alg».proof.Proof.Gen.ReferenceIdeal.Run
import proofs.«141248_j5162550690506_1_alg».proof.Proof.Gen.ReferenceIdeal.Read
import proofs.«141248_j5162550690506_1_alg».proof.Proof.KRun
import proofs.«141248_j5162550690506_1_alg».proof.Proof.KChain
import proofs.«141248_j5162550690506_1_alg».proof.Proof.RefBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- At exact arithmetic both programs end with the edge scores, the mean head and the log-variance head of the shared
    specification at the argument arrays. -/
theorem algebraic : Cert.algebraic_KernelIdeal_ReferenceIdeal := by
  intro m ρ m' ρ' _ hagree
  refine ⟨_, _, _, Cert.KernelIdeal.Results.run (F := Ideal) m ρ, ?_⟩
  refine (θ_run Cert.ReferenceIdeal.defs _ _).mono (fun r h c => ?_) (Cert.ReferenceIdeal.Value.run (F := Ideal) m' ρ')
  obtain ⟨h0, h1, h2, hargs⟩ := h c
  obtain ⟨a0, a1, a2, a3, a4, a5, a6, a7, a8, a9, a10, a11, a12⟩ := hagree c
  refine ⟨h0.trans ?_, h1.trans ?_, h2.trans ?_, hargs⟩
  · rw [Cert.ReferenceIdeal.Read.val_main_v88_eq, a0, a1, a2, a3, a4, a5, a6, a7, a8, a9, a10, a11, a12,
      Cert.ReferenceIdeal.Bridge.v88_eq, Cert.ReferenceIdeal.Bridge.v66_eq, Cert.ReferenceIdeal.Bridge.v57_eq,
      Cert.ReferenceIdeal.Bridge.v61_eq]
    exact (Cert.KernelIdeal.KChain.res0 m ρ c).symm
  · rw [Cert.ReferenceIdeal.Read.val_main_v57_eq, a0, a1, a3, a4, a5, a6, a7, a8, a9, a10,
      Cert.ReferenceIdeal.Bridge.v57_eq]
    exact (Cert.KernelIdeal.KChain.res1 m ρ c).symm
  · rw [Cert.ReferenceIdeal.Read.val_main_v61_eq, a0, a1, a3, a4, a5, a6, a7, a8, a11, a12,
      Cert.ReferenceIdeal.Bridge.v61_eq]
    exact (Cert.KernelIdeal.KChain.res2 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
